-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.sign_bit.Statement Cert.KernelIdeal.S256x3072 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x197x768 : Shape := ⟨3, ![64, 197, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S_ : Shape := ⟨0, ![]⟩

class Facts : Prop where
  bcast_S_S64x197x768 : S_.BroadcastsInDim S64x197x768 (![] : Fin 0 → Fin S64x197x768.rank)
  reducesTo_S64x197x768_S_d0_1_2 : S64x197x768.ReducesTo [0, 1, 2] S_
  h_S_ : 0 < S_.numel
  bcast_S_S3072x768 : S_.BroadcastsInDim S3072x768 (![] : Fin 0 → Fin S3072x768.rank)
  reducesTo_S3072x768_S_d0_1 : S3072x768.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x3072 1) : IVec S_ 1 :=
  let main_c_5 : IVec S_ 1 := constantI S_ 1 1#1
  let main_v17 : IVec S_ 1 := (fun x v => Host.reduce IntOp.andi x v reducesTo_S768x3072_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S64x197x768 .f32) (main_arg1 : FVec F S3072x768 .f32) (main_arg2 : FVec F S3072 .f32) (main_arg3 : FVec F S768x3072 .f32) (main_arg4 : FVec F S768 .f32) : IVec S_ 1 :=
  let main_v0 : FVec F S64x197x768 .f32 := Host.absf main_arg0
  let main_cst : FVec F S_ .f32 := constant S_ .f32 0x7F800000#32
  let main_v1 : FVec F S64x197x768 .f32 := broadcastInDim S64x197x768 ![] bcast_S_S64x197x768 main_cst
  let main_v2 : IVec S64x197x768 1 := cmpf .olt main_v0 main_v1
  let main_c : IVec S_ 1 := constantI S_ 1 1#1
  let main_v3 : IVec S_ 1 := (fun x v => Host.reduce IntOp.andi x v reducesTo_S64x197x768_S_d0_1_2 h_S_) main_v2 main_c
  let main_v4 : FVec F S3072x768 .f32 := Host.absf main_arg1
  let main_cst_0 : FVec F S_ .f32 := constant S_ .f32 0x7F800000#32
  let main_v5 : FVec F S3072x768 .f32 := broadcastInDim S3072x768 ![] bcast_S_S3072x768 main_cst_0
  let main_v6 : IVec S3072x768 1 := cmpf .olt main_v4 main_v5
  let main_c_1 : IVec S_ 1 := constantI S_ 1 1#1
  let main_v7 : IVec S_ 1 := (fun x v => Host.reduce IntOp.andi x v reducesTo_S3072x768_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S768x3072 .f32 := Host.absf main_arg3
  let main_cst_4 : FVec F S_ .f32 := constant S_ .f32 0x7F800000#32
  let main_v15 : FVec F S768x3072 .f32 := broadcastInDim S768x3072 ![] bcast_S_S768x3072 main_cst_4
  let main_v16 : IVec S768x3072 1 := cmpf .olt main_v14 main_v15
  fn_part1 (F := F) main_arg4 main_v13 main_v16
-- ==== Kernel.lean ====
abbrev S64x197x768 : Shape := ⟨3, ![64, 197, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S12608x768 : Shape := ⟨2, ![12608, 768]⟩
abbrev S_ : Shape := ⟨0, ![]⟩
abbrev S12800x768 : Shape := ⟨2, ![12800, 768]⟩
abbrev S1x3072 : Shape := ⟨2, ![1, 3072]⟩
abbrev S1x768 : Shape := ⟨2, ![1, 768]⟩
abbrev S1x1 : Shape := ⟨2, ![1, 1]⟩
abbrev S12800x3072 : Shape := ⟨2, ![12800, 3072]⟩
abbrev S256x768 : Shape := ⟨2, ![256, 768]⟩
abbrev S256x3072 : Shape := ⟨2, ![256, 3072]⟩
abbrev S12608x3072 : Shape := ⟨2, ![12608, 3072]⟩

abbrev nBuf : Space → Nat
  | .hbm => 91
  | .vmem => 16
  | .smem => 0
  | _ => 0

abbrev bufTy : (tb : Table) → Fin (tcTables nBuf tb) → BufTy
  | .hbm, ⟨0, _⟩ => ⟨S64x197x768, .f32⟩
  | .hbm, ⟨1, _⟩ => ⟨S3072x768, .f32⟩
  | .hbm, ⟨2, _⟩ => ⟨S3072, .f32⟩
  | .hbm, ⟨3, _⟩ => ⟨S768x3072, .f32⟩
  | .hbm, ⟨4, _⟩ => ⟨S768, .f32⟩
  | .hbm, ⟨5, _⟩ => ⟨S12608x768, .f32⟩
  | .hbm, ⟨6, _⟩ => ⟨S_, .i32⟩
  | .hbm, ⟨7, _⟩ => ⟨S_, .f32⟩
  | .hbm, ⟨8, _⟩ => ⟨S12800x768, .f32⟩
  | .hbm, ⟨9, _⟩ => ⟨S3072x768, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S3072x768, .f32⟩
  | .hbm, ⟨17, _⟩ => ⟨S3072x768, .f32⟩
  | .hbm, ⟨18, _⟩ => ⟨S3072x768, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S3072x768, .f32⟩
  | .hbm, ⟨23, _⟩ => ⟨S3072x768, .f32⟩
  | .hbm, ⟨24, _⟩ => ⟨S_, .f32⟩
  | .hbm, ⟨25, _⟩ => ⟨S3072x768, .f32⟩
  | .hbm, ⟨26, _⟩ => ⟨S3072x768, .f32⟩
  | .hbm, ⟨27, _⟩ => ⟨S3072x768, .f32⟩
  | .hbm, ⟨28, _⟩ => ⟨S3072x768, .f32⟩
  | .hbm, ⟨29, _⟩ => ⟨S768x3072, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S768x3072, .f32⟩
  | .hbm, ⟨37, _⟩ => ⟨S768x3072, .f32⟩
  | .hbm, ⟨38, _⟩ => ⟨S768x3072, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S768x3072, .f32⟩
  | .hbm, ⟨43, _⟩ => ⟨S768x3072, .f32⟩
  | .hbm, ⟨44, _⟩ => ⟨S_, .f32⟩
  | .hbm, ⟨45, _⟩ => ⟨S768x3072, .f32⟩
  | .hbm, ⟨46, _⟩ => ⟨S768x3072, .f32⟩
  | .hbm, ⟨47, _⟩ => ⟨S768x3072, .f32⟩
  | .hbm, ⟨48, _⟩ => ⟨S768x3072, .f32⟩
  | .hbm, ⟨49, _⟩ => ⟨S768x3072, .f32⟩
  | .hbm, ⟨50, _⟩ => ⟨S768x3072, .bf16⟩
  | .hbm, ⟨51, _⟩ => ⟨S3072x768, .f32⟩
  | .hbm, ⟨52, _⟩ => ⟨S3072x768, .bf16⟩
  | .hbm, ⟨53, _⟩ => ⟨S1x3072, .f32⟩
  | .hbm, ⟨54, _⟩ => ⟨S1x768, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S1x1, .f32⟩
  | .hbm, ⟨68, _⟩ => ⟨S1x1, .f32⟩
  | .hbm, ⟨69, _⟩ => ⟨S12800x3072, .f32⟩
  | .hbm, ⟨70, _⟩ => ⟨S12608x3072, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S1x1, .f32⟩
  | .hbm, ⟨84, _⟩ => ⟨S1x1, .f32⟩
  | .hbm, ⟨85, _⟩ => ⟨S_, .i32⟩
  | .hbm, ⟨86, _⟩ => ⟨S_, .f32⟩
  | .hbm, ⟨87, _⟩ => ⟨S12800x3072, .f32⟩
  | .hbm, ⟨88, _⟩ => ⟨S12800x768, .f32⟩
  | .hbm, ⟨89, _⟩ => ⟨S12608x768, .f32⟩
  | .hbm, ⟨90, _⟩ => ⟨S64x197x768, .f32⟩
  | .local _ .vmem, ⟨0, _⟩ => ⟨S256x768, .f32⟩
  | .local _ .vmem, ⟨1, _⟩ => ⟨S256x768, .f32⟩
  | .local _ .vmem, ⟨2, _⟩ => ⟨S1x1, .f32⟩
  | .local _ .vmem, ⟨3, _⟩ => ⟨S1x1, .f32⟩
  | .local _ .vmem, ⟨4, _⟩ => ⟨S768x3072, .bf16⟩
  | .local _ .vmem, ⟨5, _⟩ => ⟨S1x3072, .f32⟩
  | .local _ .vmem, ⟨6, _⟩ => ⟨S256x3072, .f32⟩
  | .local _ .vmem, ⟨7, _⟩ => ⟨S256x3072, .f32⟩
  | .local _ .vmem, ⟨8, _⟩ => ⟨S256x3072, .f32⟩
  | .local _ .vmem, ⟨9, _⟩ => ⟨S256x3072, .f32⟩
  | .local _ .vmem, ⟨10, _⟩ => ⟨S1x1, .f32⟩
  | .local _ .vmem, ⟨11, _⟩ => ⟨S1x1, .f32⟩
  | .local _ .vmem, ⟨12, _⟩ => ⟨S3072x768, .bf16⟩
  | .local _ .vmem, ⟨13, _⟩ => ⟨S1x768, .f32⟩
  | .local _ .vmem, ⟨14, _⟩ => ⟨S256x768, .f32⟩
  | .local _ .vmem, ⟨15, _⟩ => ⟨S256x768, .f32⟩
  | _, _ => ⟨S64x197x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_cst_3 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_cst_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_7 : Ref sig .tc := ⟨.hbm, 39, rfl⟩
abbrev main_cst_8 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_9 : Ref sig .tc := ⟨.hbm, 55, rfl⟩
abbrev main_v28 : Ref sig .tc := ⟨.hbm, 56, rfl⟩
abbrev main_cst_10 : Ref sig .tc := ⟨.hbm, 57, rfl⟩
abbrev main_v29 : Ref sig .tc := ⟨.hbm, 58, rfl⟩
abbrev main_v30 : Ref sig .tc := ⟨.hbm, 59, rfl⟩
abbrev main_cst_11 : Ref sig .tc := ⟨.hbm, 60, rfl⟩
abbrev main_v31 : Ref sig .tc := ⟨.hbm, 61, rfl⟩
abbrev main_cst_12 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_13 : Ref sig .tc := ⟨.hbm, 71, rfl⟩
abbrev main_v40 : Ref sig .tc := ⟨.hbm, 72, rfl⟩
abbrev main_cst_14 : Ref sig .tc := ⟨.hbm, 73, rfl⟩
abbrev main_v41 : Ref sig .tc := ⟨.hbm, 74, rfl⟩
abbrev main_v42 : Ref sig .tc := ⟨.hbm, 75, rfl⟩
abbrev main_cst_15 : Ref sig .tc := ⟨.hbm, 76, rfl⟩
abbrev main_v43 : Ref sig .tc := ⟨.hbm, 77, rfl⟩
abbrev main_cst_16 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_17 : Ref sig .tc := ⟨.hbm, 85, rfl⟩
abbrev main_call7_v0 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [BitOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3072x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64x197x768_S12608x768 : S64x197x768.ShapeCasts S12608x768
  pads_S12608x768_S12800x768_01920_000 : S12608x768.Pads (![0, 0] : Fin 2 → Nat) ![192, 0] ![0, 0] S12800x768
  h_S_ : 0 < S_.numel
  reducesTo_S3072x768_S_d0_1 : S3072x768.ReducesTo [0, 1] S_
  bcast_S_S3072x768 : S_.BroadcastsInDim S3072x768 (![] : Fin 0 → Fin S3072x768.rank)
  reducesTo_S768x3072_S_d0_1 : S768x3072.ReducesTo [0, 1] S_
  bcast_S_S768x3072 : S_.BroadcastsInDim S768x3072 (![] : Fin 0 → Fin S768x3072.rank)
  transposes_S3072x768_S768x3072_1_0 : S3072x768.Transposes [1, 0] S768x3072
  bitsLt_bf16_f32 : FTy.bits .bf16 < FTy.bits .f32
  transposes_S768x3072_S3072x768_1_0 : S768x3072.Transposes [1, 0] S3072x768
  shapeCasts_S3072_S1x3072 : S3072.ShapeCasts S1x3072
  shapeCasts_S768_S1x768 : S768.ShapeCasts S1x768
  reducesTo_S12608x768_S_d0_1 : S12608x768.ReducesTo [0, 1] S_
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768x3072_S768x3072_0_0 : ∀ a, (![0, 0] : Fin 2 → Nat) a + S768x3072.size a ≤ S768x3072.size a
  h_S768x3072 : 0 < S768x3072.numel
  shapeCasts_S768x3072_S768x3072 : S768x3072.ShapeCasts S768x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S256x3072_S256x3072_0_0 : ∀ a, (![0, 0] : Fin 2 → Nat) a + S256x3072.size a ≤ S256x3072.size a
  h_S256x3072 : 0 < S256x3072.numel
  slices_S12800x3072_S12608x3072_0_0 : S12800x3072.Slices ![0, 0] S12608x3072
  reducesTo_S12608x3072_S_d0_1 : S12608x3072.ReducesTo [0, 1] S_
  pads_S12608x3072_S12800x3072_01920_000 : S12608x3072.Pads (![0, 0] : Fin 2 → Nat) ![192, 0] ![0, 0] S12800x3072
  shapeCasts_S256x3072_S256x3072 : S256x3072.ShapeCasts S256x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  slices_S12800x768_S12608x768_0_0 : S12800x768.Slices ![0, 0] S12608x768
  shapeCasts_S12608x768_S64x197x768 : S12608x768.ShapeCasts S64x197x768
  dot_S256x768_S768x3072_S256x3072_1_0_0_1_n_n_wf : DotDims.WF S256x768 S768x3072 S256x3072 [1] [0] [0] [1] [] []
  dot_S256x3072_S3072x768_S256x768_1_0_0_1_n_n_wf : DotDims.WF S256x3072 S3072x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S12800x768.size a
  hwx0_0 : ∀ i : grid0.Coords, EltTy.bits .f32 = 32 ∨ (Rect.block (s := S12800x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x3072.size a ≤ S768x3072.size a
  hwx0_3 : ∀ i : grid0.Coords, EltTy.bits .bf16 = 32 ∨ (Rect.block (s := S768x3072) S768x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .f32 = 32 ∨ (Rect.block (s := S1x3072) S1x3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x3072.size a ≤ S12800x3072.size a
  hwx0_5 : ∀ i : grid0.Coords, EltTy.bits .f32 = 32 ∨ (Rect.block (s := S12800x3072) S256x3072.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3072.size a ≤ S12800x3072.size a
  hwx1_0 : ∀ i : grid1.Coords, EltTy.bits .f32 = 32 ∨ (Rect.block (s := S12800x3072) S256x3072.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3072x768.size a ≤ S3072x768.size a
  hwx1_3 : ∀ i : grid1.Coords, EltTy.bits .bf16 = 32 ∨ (Rect.block (s := S3072x768) S3072x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x768.size a ≤ S12800x768.size a
  hwx1_5 : ∀ i : grid1.Coords, EltTy.bits .f32 = 32 ∨ (Rect.block (s := S12800x768) S256x768.size (cc1_transform_5 i) (hinb1_5 i)).WholeWords (EltTy.packing .f32)

variable [Facts₀]

def dot_S256x768_S768x3072_S256x3072_1_0_0_1_n_n : DotDims S256x768 S768x3072 S256x3072 where
  lhsContracting := [1]
  rhsContracting := [0]
  lhsNonContracting := [0]
  rhsNonContracting := [1]
  lhsBatch := []
  rhsBatch := []
  wf := dot_S256x768_S768x3072_S256x3072_1_0_0_1_n_n_wf
def dot_S256x3072_S3072x768_S256x768_1_0_0_1_n_n : DotDims S256x3072 S3072x768 S256x768 where
  lhsContracting := [1]
  rhsContracting := [0]
  lhsNonContracting := [0]
  rhsNonContracting := [1]
  lhsBatch := []
  rhsBatch := []
  wf := dot_S256x3072_S3072x768_S256x768_1_0_0_1_n_n_wf

abbrev win0_0 : Pipeline.Window sig grid0 :=
  Pipeline.Window.ofSpec (Memref.whole main_v1) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S768x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S256x3072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v50) S256x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S3072x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S256x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x197x768 : Shape := ⟨3, ![64, 197, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S_ : Shape := ⟨0, ![]⟩
abbrev S64x197x3072 : Shape := ⟨3, ![64, 197, 3072]⟩
abbrev S1x1x3072 : Shape := ⟨3, ![1, 1, 3072]⟩
abbrev S1x1x768 : Shape := ⟨3, ![1, 1, 768]⟩

abbrev nBuf : Space → Nat
  | .hbm => 145
  | .vmem => 0
  | .smem => 0
  | _ => 0

abbrev hbmTy0_0 (i : Nat) : BufTy := match i % 128 with
  | 0 => ⟨S64x197x768, .f32⟩
  | 1 => ⟨S3072x768, .f32⟩
  | 2 => ⟨S3072, .f32⟩
  | 3 => ⟨S768x3072, .f32⟩
  | 4 => ⟨S768, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S64x197x768, .f32⟩
  | 18 => ⟨S64x197x768, .f32⟩
  | 19 => ⟨S64x197x768, .f32⟩
  | 20 => ⟨S64x197x768, .f32⟩
  | 21 => ⟨S64x197x768, .f32⟩
  | 22 => ⟨S64x197x768, .f32⟩
  | 23 => ⟨S64x197x768, .f32⟩
  | 24 => ⟨S_, .f32⟩
  | 25 => ⟨S_, .f32⟩
  | 26 => ⟨S_, .f32⟩
  | 27 => ⟨S64x197x768, .f32⟩
  | 28 => ⟨S64x197x768, .f32⟩
  | 29 => ⟨S_, .f32⟩
  | 30 => ⟨S64x197x768, .f32⟩
  | 31 => ⟨S64x197x768, .f32⟩
  | 32 => ⟨S64x197x768, .f32⟩
  | 33 => ⟨S64x197x768, .f32⟩
  | 34 => ⟨S64x197x768, .f32⟩
  | 35 => ⟨S64x197x768, .f32⟩
  | 36 => ⟨S3072x768, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S3072x768, .f32⟩
  | 44 => ⟨S3072x768, .f32⟩
  | 45 => ⟨S3072x768, .f32⟩
  | 46 => ⟨S3072x768, .f32⟩
  | 47 => ⟨S3072x768, .f32⟩
  | 48 => ⟨S_, .f32⟩
  | 49 => ⟨S_, .f32⟩
  | 50 => ⟨S_, .f32⟩
  | 51 => ⟨S3072x768, .f32⟩
  | 52 => ⟨S3072x768, .f32⟩
  | 53 => ⟨S_, .f32⟩
  | 54 => ⟨S3072x768, .f32⟩
  | 55 => ⟨S3072x768, .f32⟩
  | 56 => ⟨S3072x768, .f32⟩
  | 57 => ⟨S3072x768, .f32⟩
  | 58 => ⟨S64x197x3072, .f32⟩
  | 59 => ⟨S1x1x3072, .f32⟩
  | 60 => ⟨S64x197x3072, .f32⟩
  | 61 => ⟨S64x197x3072, .f32⟩
  | 62 => ⟨S_, .f32⟩
  | 63 => ⟨S64x197x3072, .f32⟩
  | 64 => ⟨S64x197x3072, .f32⟩
  | 65 => ⟨S64x197x3072, .f32⟩
  | 66 => ⟨S_, .f32⟩
  | 67 => ⟨S64x197x3072, .f32⟩
  | 68 => ⟨S64x197x3072, .f32⟩
  | 69 => ⟨S64x197x3072, .f32⟩
  | 70 => ⟨S_, .f32⟩
  | 71 => ⟨S64x197x3072, .f32⟩
  | 72 => ⟨S64x197x3072, .f32⟩
  | 73 => ⟨S64x197x3072, .f32⟩
  | 74 => ⟨S_, .f32⟩
  | 75 => ⟨S64x197x3072, .f32⟩
  | 76 => ⟨S64x197x3072, .f32⟩
  | 77 => ⟨S_, .f32⟩
  | 78 => ⟨S64x197x3072, .f32⟩
  | 79 => ⟨S64x197x3072, .f32⟩
  | 80 => ⟨S64x197x3072, .f32⟩
  | 81 => ⟨S_, .f32⟩
  | 82 => ⟨S64x197x3072, .f32⟩
  | 83 => ⟨S64x197x3072, .f32⟩
  | 84 => ⟨S_, .f32⟩
  | 85 => ⟨S64x197x3072, .f32⟩
  | 86 => ⟨S64x197x3072, .f32⟩
  | 87 => ⟨S64x197x3072, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S64x197x3072, .f32⟩
  | 101 => ⟨S64x197x3072, .f32⟩
  | 102 => ⟨S64x197x3072, .f32⟩
  | 103 => ⟨S64x197x3072, .f32⟩
  | 104 => ⟨S64x197x3072, .f32⟩
  | 105 => ⟨S64x197x3072, .f32⟩
  | 106 => ⟨S64x197x3072, .f32⟩
  | 107 => ⟨S_, .f32⟩
  | 108 => ⟨S_, .f32⟩
  | 109 => ⟨S_, .f32⟩
  | 110 => ⟨S64x197x3072, .f32⟩
  | 111 => ⟨S64x197x3072, .f32⟩
  | 112 => ⟨S_, .f32⟩
  | 113 => ⟨S64x197x3072, .f32⟩
  | 114 => ⟨S64x197x3072, .f32⟩
  | 115 => ⟨S64x197x3072, .f32⟩
  | 116 => ⟨S64x197x3072, .f32⟩
  | 117 => ⟨S64x197x3072, .f32⟩
  | 118 => ⟨S64x197x3072, .f32⟩
  | 119 => ⟨S768x3072, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S768x3072, .f32⟩
  | 127 => ⟨S768x3072, .f32⟩
  | _ => ⟨S64x197x768, .f32⟩

abbrev hbmTy0_1 (i : Nat) : BufTy := match i % 128 with
  | 0 => ⟨S768x3072, .f32⟩
  | 1 => ⟨S768x3072, .f32⟩
  | 2 => ⟨S768x3072, .f32⟩
  | 3 => ⟨S_, .f32⟩
  | 4 => ⟨S_, .f32⟩
  | 5 => ⟨S_, .f32⟩
  | 6 => ⟨S768x3072, .f32⟩
  | 7 => ⟨S768x3072, .f32⟩
  | 8 => ⟨S_, .f32⟩
  | 9 => ⟨S768x3072, .f32⟩
  | 10 => ⟨S768x3072, .f32⟩
  | 11 => ⟨S768x3072, .f32⟩
  | 12 => ⟨S768x3072, .f32⟩
  | 13 => ⟨S64x197x768, .f32⟩
  | 14 => ⟨S1x1x768, .f32⟩
  | 15 => ⟨S64x197x768, .f32⟩
  | 16 => ⟨S64x197x768, .f32⟩
  | _ => ⟨S64x197x768, .f32⟩

abbrev hbmTy (i : Nat) : BufTy := match i / 128 with
  | 0 => hbmTy0_0 i
  | 1 => hbmTy0_1 i
  | _ => ⟨S64x197x768, .f32⟩

abbrev bufTy : (tb : Table) → Fin (tcTables nBuf tb) → BufTy
  | .hbm, ⟨i, _⟩ => hbmTy i
  | _, _ => ⟨S64x197x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_cst_9 : Ref sig .tc := ⟨.hbm, 49, rfl⟩
abbrev main_call4_v0 : Ref sig .tc := ⟨.hbm, 50, rfl⟩
abbrev main_call4_v1 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_10 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_11 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_12 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_13 : Ref sig .tc := ⟨.hbm, 74, rfl⟩
abbrev main_v45 : Ref sig .tc := ⟨.hbm, 75, rfl⟩
abbrev main_v46 : Ref sig .tc := ⟨.hbm, 76, rfl⟩
abbrev main_cst_14 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_15 : Ref sig .tc := ⟨.hbm, 81, rfl⟩
abbrev main_v50 : Ref sig .tc := ⟨.hbm, 82, rfl⟩
abbrev main_v51 : Ref sig .tc := ⟨.hbm, 83, rfl⟩
abbrev main_cst_16 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_17 : Ref sig .tc := ⟨.hbm, 88, rfl⟩
abbrev main_v55 : Ref sig .tc := ⟨.hbm, 89, rfl⟩
abbrev main_cst_18 : Ref sig .tc := ⟨.hbm, 90, rfl⟩
abbrev main_v56 : Ref sig .tc := ⟨.hbm, 91, rfl⟩
abbrev main_v57 : Ref sig .tc := ⟨.hbm, 92, rfl⟩
abbrev main_cst_19 : Ref sig .tc := ⟨.hbm, 93, rfl⟩
abbrev main_v58 : Ref sig .tc := ⟨.hbm, 94, rfl⟩
abbrev main_cst_20 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_21 : Ref sig .tc := ⟨.hbm, 107, rfl⟩
abbrev main_cst_22 : Ref sig .tc := ⟨.hbm, 108, rfl⟩
abbrev main_call7_v0 : Ref sig .tc := ⟨.hbm, 109, rfl⟩
abbrev main_call7_v1 : Ref sig .tc := ⟨.hbm, 110, rfl⟩
abbrev main_call7_v2 : Ref sig .tc := ⟨.hbm, 111, rfl⟩
abbrev main_call7_v3 : Ref sig .tc := ⟨.hbm, 112, rfl⟩
abbrev main_call7_v4 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_23 : Ref sig .tc := ⟨.hbm, 120, rfl⟩
abbrev main_v76 : Ref sig .tc := ⟨.hbm, 121, rfl⟩
abbrev main_cst_24 : Ref sig .tc := ⟨.hbm, 122, rfl⟩
abbrev main_v77 : Ref sig .tc := ⟨.hbm, 123, rfl⟩
abbrev main_cst_25 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_26 : Ref sig .tc := ⟨.hbm, 131, rfl⟩
abbrev main_cst_27 : Ref sig .tc := ⟨.hbm, 132, rfl⟩
abbrev main_call9_v0 : Ref sig .tc := ⟨.hbm, 133, rfl⟩
abbrev main_call9_v1 : Ref sig .tc := ⟨.hbm, 134, rfl⟩
abbrev main_call9_v2 : Ref sig .tc := ⟨.hbm, 135, rfl⟩
abbrev main_call9_v3 : Ref sig .tc := ⟨.hbm, 136, rfl⟩
abbrev main_call9_v4 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩

abbrev nD : Nat := 1
abbrev τ : Topo := Topo.v7x

variable {F : FTy → Type} [FloatOps F]

class Facts₀ : Prop where
  reducesTo_S64x197x768_S_d0_1_2 : S64x197x768.ReducesTo [0, 1, 2] S_
  h_S_ : 0 < S_.numel
  bcast_S_S64x197x768 : S_.BroadcastsInDim S64x197x768 (![] : Fin 0 → Fin S64x197x768.rank)
  reducesTo_S3072x768_S_d0_1 : S3072x768.ReducesTo [0, 1] S_
  bcast_S_S3072x768 : S_.BroadcastsInDim S3072x768 (![] : Fin 0 → Fin S3072x768.rank)
  bcast_S3072_S1x1x3072_2 : S3072.BroadcastsInDim S1x1x3072 (![2] : Fin 1 → Fin S1x1x3072.rank)
  bcast_S1x1x3072_S64x197x3072_0_1_2 : S1x1x3072.BroadcastsInDim S64x197x3072 (![0, 1, 2] : Fin 3 → Fin S64x197x3072.rank)
  bcast_S_S64x197x3072 : S_.BroadcastsInDim S64x197x3072 (![] : Fin 0 → Fin S64x197x3072.rank)
  reducesTo_S64x197x3072_S_d0_1_2 : S64x197x3072.ReducesTo [0, 1, 2] S_
  reducesTo_S768x3072_S_d0_1 : S768x3072.ReducesTo [0, 1] S_
  bcast_S_S768x3072 : S_.BroadcastsInDim S768x3072 (![] : Fin 0 → Fin S768x3072.rank)
  bcast_S768_S1x1x768_2 : S768.BroadcastsInDim S1x1x768 (![2] : Fin 1 → Fin S1x1x768.rank)
  bcast_S1x1x768_S64x197x768_0_1_2 : S1x1x768.BroadcastsInDim S64x197x768 (![0, 1, 2] : Fin 3 → Fin S64x197x768.rank)
  dot_S64x197x768_S3072x768_S64x197x3072_2_1_01_0_n_n_wf : DotDims.WF S64x197x768 S3072x768 S64x197x3072 [2] [1] [0, 1] [0] [] []
  dot_S64x197x3072_S768x3072_S64x197x768_2_1_01_0_n_n_wf : DotDims.WF S64x197x3072 S768x3072 S64x197x768 [2] [1] [0, 1] [0] [] []

variable [Facts₀]

def dot_S64x197x768_S3072x768_S64x197x3072_2_1_01_0_n_n : DotDims S64x197x768 S3072x768 S64x197x3072 where
  lhsContracting := [2]
  rhsContracting := [1]
  lhsNonContracting := [0, 1]
  rhsNonContracting := [0]
  lhsBatch := []
  rhsBatch := []
  wf := dot_S64x197x768_S3072x768_S64x197x3072_2_1_01_0_n_n_wf
def dot_S64x197x3072_S768x3072_S64x197x768_2_1_01_0_n_n : DotDims S64x197x3072 S768x3072 S64x197x768 where
  lhsContracting := [2]
  rhsContracting := [1]
  lhsNonContracting := [0, 1]
  rhsNonContracting := [0]
  lhsBatch := []
  rhsBatch := []
  wf := dot_S64x197x3072_S768x3072_S64x197x768_2_1_01_0_n_n_wf

class Facts : Prop extends Facts₀ where

variable [Facts]
-- ==== Proof.QuantSpec.lean ====
/-
  The function both programs compute, over the extended reals, written once.

  A two-layer perceptron whose activations and weights are passed through a quantise / de-quantise pair before
  each matrix product:

  * an activation tensor `v` with least entry `mn` and greatest entry `mx` gets the step `s = max (mx - mn) ε / 255`
    and the zero point `z = round (-mn / s)`; an entry `a` becomes `(clamp₀²⁵⁵ (round (a / s) + z) - z) · s`;
  * a weight matrix `w` with greatest magnitude `M` gets the step `t = max M ε / 127`; an entry `a` becomes
    `clamp₋₁₂₈¹²⁷ (round (a / t)) · t`;
  * the hidden layer is  `h = q(x) · q(w1)ᵀ + b1`, passed through a polynomial approximation of GELU,
    `g = (h / 2) · (1 + sign t · (a · (min |t| c + b)² + 1))` with `t = h · κ`;
  * the output is  `q(g) · q(w2)ᵀ + b2`.

  Rounding is to nearest, ties to even. Every float literal is kept as the extended real its bit pattern denotes.
-/
import Idealize.ShloMosaic.PureOps.Ideal
import Idealize.ShloMosaic.Lib.ValueIdx

noncomputable section

namespace Cert.QuantSpec

open Idealize.ShloMosaic Idealize.ShloMosaic.ValueIdx

/-! ## Scalars -/

abbrev c0 : EReal := Ideal.ofBits .f32 0x00000000#32
abbrev c1 : EReal := Ideal.ofBits .f32 0x3F800000#32
abbrev c255 : EReal := Ideal.ofBits .f32 0x437F0000#32
abbrev c127 : EReal := Ideal.ofBits .f32 0x42FE0000#32
abbrev cm128 : EReal := Ideal.ofBits .f32 0xC3000000#32
abbrev cEps : EReal := Ideal.ofBits .f32 0x322BCC77#32
abbrev cKappa : EReal := Ideal.ofBits .f32 0x3F3504F3#32
abbrev cClip : EReal := Ideal.ofBits .f32 0x3FE26E98#32
abbrev cB : EReal := Ideal.ofBits .f32 0xBFE26E98#32
abbrev cA : EReal := Ideal.ofBits .f32 0xBE93DD98#32
abbrev cHalf : EReal := Ideal.ofBits .f32 0x3F000000#32

/-- To nearest, ties to even; the infinities fixed. -/
abbrev rnd (a : EReal) : EReal := Ideal.liftRound Ideal.roundHalfEven a

/-- The step of an activation tensor whose entries range over `[mn, mx]`. -/
def actStep (mn mx : EReal) : EReal := Ideal.div (max (mx - mn) cEps) c255
/-- Its zero point. -/
def actZero (mn mx : EReal) : EReal := rnd (Ideal.div (-mn) (actStep mn mx))
/-- An activation entry quantised to 0 … 255 about the zero point and scaled back. -/
def actQ (s z a : EReal) : EReal := (min c255 (max c0 (rnd (Ideal.div a s) + z)) - z) * s
/-- The step of a weight matrix whose greatest magnitude is `M`. -/
def wStep (M : EReal) : EReal := Ideal.div (max M cEps) c127
/-- A weight entry quantised to -128 … 127 and scaled back. -/
def wQ (t a : EReal) : EReal := min c127 (max cm128 (rnd (Ideal.div a t))) * t
/-- The polynomial GELU. -/
def gelu (h : EReal) : EReal :=
  (h * cHalf) * (c1 + Ideal.sign (h * cKappa)
    * (cA * ((min (max (h * cKappa) (-(h * cKappa))) cClip + cB) * (min (max (h * cKappa) (-(h * cKappa))) cClip + cB)) + c1))

/-! ## Arrays -/

abbrev SX : Shape := ⟨3, ![64, 197, 768]⟩
abbrev SW1 : Shape := ⟨2, ![3072, 768]⟩
abbrev SB1 : Shape := ⟨1, ![3072]⟩
abbrev SW2 : Shape := ⟨2, ![768, 3072]⟩
abbrev SB2 : Shape := ⟨1, ![768]⟩
abbrev SG : Shape := ⟨3, ![64, 197, 3072]⟩

/-- Greatest magnitude of a tensor's entries (bottom for an empty one). -/
def absMax {s : Shape} (w : s.Idx → EReal) : EReal := Finset.univ.sup fun i => max (w i) (-(w i))

section
variable (x : SX.Idx → EReal) (w1 : SW1.Idx → EReal) (b1 : SB1.Idx → EReal) (w2 : SW2.Idx → EReal) (b2 : SB2.Idx → EReal)

def s1 : EReal := actStep (Finset.univ.inf x) (Finset.univ.sup x)
def z1 : EReal := actZero (Finset.univ.inf x) (Finset.univ.sup x)

/-- The hidden layer before the nonlinearity, at (batch b, token s, hidden unit j). -/
def hid (b : Fin 64) (s : Fin 197) (j : Fin 3072) : EReal :=
  (∑ k : Fin 768, actQ (s1 x) (z1 x) (x (ix3 b s k)) * wQ (wStep (absMax w1)) (w1 (ix2 j k))) + b1 (ix1 j)

/-- The hidden layer after the nonlinearity. -/
def act (i : SG.Idx) : EReal := gelu (hid x w1 b1 (i 0) (i 1) (i 2))

def s2 : EReal := actStep (Finset.univ.inf (act x w1 b1)) (Finset.univ.sup (act x w1 b1))
def z2 : EReal := actZero (Finset.univ.inf (act x w1 b1)) (Finset.univ.sup (act x w1 b1))

/-- The result, at (batch b, token s, feature d). -/
def out (i : SX.Idx) : EReal :=
  (∑ j : Fin 3072, actQ (s2 x w1 b1) (z2 x w1 b1) (act x w1 b1 (ix3 (i 0) (i 1) j)) * wQ (wStep (absMax w2)) (w2 (ix2 (i 2) j)))
    + b2 (ix1 (i 2))

end

end Cert.QuantSpec

end
-- ==== Proof.LibFinite.lean ====
import Idealize.ShloMosaic.PureOps.Ideal
import Idealize.ShloMosaic.PureOps.Ideal.Laws

/-!
# Finiteness of extended reals

General facts about the extended reals `EReal` used as idealized float values.

* `IsReal x` says that `x` is neither `⊤` nor `⊥`, that is, `x` is (the coercion of) a real number.
  It is closed under addition, subtraction, multiplication, negation, `max`, `min`, the absolute
  value `max x (-x)`, integer roundings extended to the infinities, finite sums, and suprema and
  infima over a nonempty finite type.  The sign of any extended real is real, clamping any extended
  real between two real bounds is real, and a quotient of reals by a nonzero real is real (and
  positive when both are positive).
* `a + (b - a) = b` for a real `a` and an arbitrary extended real `b`.
* The sign function written with two comparisons and two selections.
* The extended reals denoted by a few single-precision words.
* Folding `max` from `⊥` (resp. `min` from `⊤`) over a finite set is its supremum (resp. infimum).
-/

noncomputable section
namespace LibFinite
open Idealize.ShloMosaic

/-! ## Real (finite) extended reals -/

/-- An extended real is *real* when it is neither of the two infinities. -/
def IsReal (x : EReal) : Prop := x ≠ ⊤ ∧ x ≠ ⊥

/-- The coercion of a real number is real. -/
theorem IsReal.coe (r : ℝ) : IsReal (r : EReal) := ⟨EReal.coe_ne_top r, EReal.coe_ne_bot r⟩

theorem IsReal.zero : IsReal (0 : EReal) := by
  rw [← EReal.coe_zero]; exact IsReal.coe 0

theorem IsReal.one : IsReal (1 : EReal) := by
  rw [← EReal.coe_one]; exact IsReal.coe 1

/-- A real extended real is the coercion of some real number. -/
theorem IsReal.exists {x : EReal} (h : IsReal x) : ∃ r : ℝ, x = (r : EReal) := by
  induction x using EReal.rec with
  | bot => exact absurd rfl h.2
  | top => exact absurd rfl h.1
  | coe r => exact ⟨r, rfl⟩

theorem IsReal.add {x y : EReal} (hx : IsReal x) (hy : IsReal y) : IsReal (x + y) := by
  obtain ⟨a, rfl⟩ := hx.exists
  obtain ⟨b, rfl⟩ := hy.exists
  rw [← EReal.coe_add]; exact IsReal.coe _

theorem IsReal.sub {x y : EReal} (hx : IsReal x) (hy : IsReal y) : IsReal (x - y) := by
  obtain ⟨a, rfl⟩ := hx.exists
  obtain ⟨b, rfl⟩ := hy.exists
  rw [← EReal.coe_sub]; exact IsReal.coe _

theorem IsReal.mul {x y : EReal} (hx : IsReal x) (hy : IsReal y) : IsReal (x * y) := by
  obtain ⟨a, rfl⟩ := hx.exists
  obtain ⟨b, rfl⟩ := hy.exists
  rw [← EReal.coe_mul]; exact IsReal.coe _

theorem IsReal.neg {x : EReal} (hx : IsReal x) : IsReal (-x) := by
  obtain ⟨a, rfl⟩ := hx.exists
  rw [← EReal.coe_neg]; exact IsReal.coe _

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- The absolute value `max x (-x)` of a real is real. -/
theorem IsReal.abs {x : EReal} (hx : IsReal x) : IsReal (Max.max x (-x)) :=
  IsReal.max hx hx.neg

/-- A rounding to the integers, extended by fixing the infinities, keeps reals real. -/
theorem IsReal.liftRound (f : ℝ → ℤ) {x : EReal} (hx : IsReal x) : IsReal (Ideal.liftRound f x) := by
  obtain ⟨a, rfl⟩ := hx.exists
  rw [Ideal.liftRound_coe]; exact IsReal.coe _

/-- The sign of any extended real is one of `-1`, `0`, `1`, hence real. -/
theorem IsReal.sign (x : EReal) : IsReal (Ideal.sign x) := by
  induction x using EReal.rec with
  | bot => rw [Ideal.sign_bot]; exact IsReal.one.neg
  | top => rw [Ideal.sign_top]; exact IsReal.one
  | coe r => rw [Ideal.sign_coe]; exact IsReal.coe _

/-- Clamping any extended real (an infinite one too) between two real bounds gives a real: the
    result is at most `hi`, and at least `min hi lo`. -/
theorem IsReal.clamp {lo hi : EReal} (x : EReal) (hlo : IsReal lo) (hhi : IsReal hi) :
    IsReal (Min.min hi (Max.max lo x)) := by
  refine ⟨ne_top_of_le_ne_top hhi.1 (min_le_left _ _), ?_⟩
  exact ne_bot_of_le_ne_bot (IsReal.min hhi hlo).2 (min_le_min_left hi (le_max_left lo x))

/-- The quotient of a real by a nonzero real is real. -/
theorem IsReal.div {x y : EReal} (hx : IsReal x) (hy : IsReal y) (h0 : y ≠ 0) :
    IsReal (Ideal.div x y) := by
  obtain ⟨b, rfl⟩ := hy.exists
  have hb : b ≠ 0 := fun h => h0 (by rw [h, EReal.coe_zero])
  rw [Ideal.div_coe hb]
  exact IsReal.mul hx (IsReal.coe _)

/-- The quotient of two positive reals is a positive real. -/
theorem IsReal.div_pos {x y : EReal} (hx : IsReal x) (hy : IsReal y) (hx0 : 0 < x) (hy0 : 0 < y) :
    IsReal (Ideal.div x y) ∧ 0 < Ideal.div x y := by
  refine ⟨IsReal.div hx hy hy0.ne', ?_⟩
  obtain ⟨a, rfl⟩ := hx.exists
  obtain ⟨b, rfl⟩ := hy.exists
  have ha : 0 < a := EReal.coe_pos.mp hx0
  have hb : 0 < b := EReal.coe_pos.mp hy0
  rw [Ideal.div_coe hb.ne', ← EReal.coe_mul]
  exact EReal.coe_pos.mpr (by positivity)

/-- A finite sum of reals is real. -/
theorem IsReal.sum {ι : Type} (s : Finset ι) (f : ι → EReal) (h : ∀ i ∈ s, IsReal (f i)) :
    IsReal (∑ i ∈ s, f i) :=
  Finset.sum_induction f IsReal (fun _ _ => IsReal.add) IsReal.zero h

/-- The supremum of finitely many reals (at least one) is one of them, hence real. -/
theorem IsReal.sup_univ {ι : Type} [Fintype ι] [Nonempty ι] (f : ι → EReal) (h : ∀ i, IsReal (f i)) :
    IsReal (Finset.univ.sup f) := by
  obtain ⟨i, -, hi⟩ := Finset.exists_mem_eq_sup Finset.univ Finset.univ_nonempty f
  rw [hi]; exact h i

/-- The infimum of finitely many reals (at least one) is one of them, hence real. -/
theorem IsReal.inf_univ {ι : Type} [Fintype ι] [Nonempty ι] (f : ι → EReal) (h : ∀ i, IsReal (f i)) :
    IsReal (Finset.univ.inf f) := by
  obtain ⟨i, -, hi⟩ := Finset.exists_mem_eq_inf Finset.univ Finset.univ_nonempty f
  rw [hi]; exact h i

/-! ## Cancelling a real -/

/-- Adding back a real `a` that was subtracted from an arbitrary extended real `b` returns `b`:
    for `b = ⊤` both sides are `⊤`, for `b = ⊥` both are `⊥`, and for real `b` it is the
    identity of the reals. -/
theorem add_sub_cancel_of_real {a : EReal} (b : EReal) (ha : IsReal a) : a + (b - a) = b := by
  obtain ⟨r, rfl⟩ := ha.exists
  induction b using EReal.rec with
  | bot => rw [EReal.bot_sub, EReal.add_bot]
  | top => rw [EReal.top_sub_coe, EReal.coe_add_top]
  | coe s => rw [← EReal.coe_sub, ← EReal.coe_add, add_sub_cancel]

/-! ## Single-precision words as extended reals -/

/-- The word with all exponent bits set and a zero significand denotes `⊤`. -/
theorem ofBits_pinf : Ideal.ofBits .f32 0x7F800000#32 = ⊤ := by simp [Ideal.ofBits, Ideal.ieee]

/-- The same word with the sign bit set denotes `⊥`. -/
theorem ofBits_ninf : Ideal.ofBits .f32 0xFF800000#32 = ⊥ := by simp [Ideal.ofBits, Ideal.ieee]

/-- `2 ^ 23 * 2 ^ (127 - 127 - 23) = 1`. -/
theorem ofBits_one : Ideal.ofBits .f32 0x3F800000#32 = 1 := by
  simp [Ideal.ofBits, Ideal.ieee, -EReal.coe_mul]; norm_num

theorem ofBits_neg_one : Ideal.ofBits .f32 0xBF800000#32 = -1 := by
  simp [Ideal.ofBits, Ideal.ieee, -EReal.coe_mul]; norm_num

/-- `(2 ^ 23 + 0x7E0000) * 2 ^ (133 - 127 - 23) = 127`. -/
theorem ofBits_127 : Ideal.ofBits .f32 0x42FE0000#32 = ((127 : ℝ) : EReal) := by
  simp [Ideal.ofBits, Ideal.ieee, -EReal.coe_mul]; norm_num

theorem ofBits_255 : Ideal.ofBits .f32 0x437F0000#32 = ((255 : ℝ) : EReal) := by
  simp [Ideal.ofBits, Ideal.ieee, -EReal.coe_mul]; norm_num

theorem ofBits_neg_128 : Ideal.ofBits .f32 0xC3000000#32 = ((-128 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-! A word whose exponent field is neither all zeros nor all ones denotes
    `± (2 ^ 23 + T) * 2 ^ (E - 150)`, the coercion of a real number; its exact value is not needed. -/

theorem isReal_322BCC77 : IsReal (Ideal.ofBits .f32 0x322BCC77#32) := by
  have h : ∃ r : ℝ, Ideal.ofBits .f32 0x322BCC77#32 = (r : EReal) := by
    simp [Ideal.ofBits, Ideal.ieee, -EReal.coe_mul]
  obtain ⟨r, hr⟩ := h
  rw [hr]; exact IsReal.coe r

theorem isReal_3F3504F3 : IsReal (Ideal.ofBits .f32 0x3F3504F3#32) := by
  have h : ∃ r : ℝ, Ideal.ofBits .f32 0x3F3504F3#32 = (r : EReal) := by
    simp [Ideal.ofBits, Ideal.ieee, -EReal.coe_mul]
  obtain ⟨r, hr⟩ := h
  rw [hr]; exact IsReal.coe r

theorem isReal_3FE26E98 : IsReal (Ideal.ofBits .f32 0x3FE26E98#32) := by
  have h : ∃ r : ℝ, Ideal.ofBits .f32 0x3FE26E98#32 = (r : EReal) := by
    simp [Ideal.ofBits, Ideal.ieee, -EReal.coe_mul]
  obtain ⟨r, hr⟩ := h
  rw [hr]; exact IsReal.coe r

theorem isReal_BFE26E98 : IsReal (Ideal.ofBits .f32 0xBFE26E98#32) := by
  have h : ∃ r : ℝ, Ideal.ofBits .f32 0xBFE26E98#32 = (r : EReal) := by
    simp [Ideal.ofBits, Ideal.ieee, -EReal.coe_mul]
    exact ⟨_, (EReal.coe_neg _).symm⟩
  obtain ⟨r, hr⟩ := h
  rw [hr]; exact IsReal.coe r

theorem isReal_BE93DD98 : IsReal (Ideal.ofBits .f32 0xBE93DD98#32) := by
  have h : ∃ r : ℝ, Ideal.ofBits .f32 0xBE93DD98#32 = (r : EReal) := by
    simp [Ideal.ofBits, Ideal.ieee, -EReal.coe_mul]
    exact ⟨_, (EReal.coe_neg _).symm⟩
  obtain ⟨r, hr⟩ := h
  rw [hr]; exact IsReal.coe r

/-- The word `0x322BCC77` (about `1e-8`) has a clear sign bit and a nonzero exponent field, so it
    denotes a product of positive reals. -/
theorem pos_322BCC77 : 0 < Ideal.ofBits .f32 0x322BCC77#32 := by
  simp [Ideal.ofBits, Ideal.ieee, -EReal.coe_mul]

/-! ## The sign function from comparisons -/

/-- Selecting `-1` or `1` by `t < 0` where `0 < |t|`, and `t` itself otherwise, is the sign of `t`,
    for every extended real: below zero (`⊥` included) `|t| > 0` and the value is `-1`; above zero
    (`⊤` included) `|t| > 0` and the value is `1`; at zero `|t| = 0` and the value is `t = 0`. -/
theorem sign_eq_select (t : EReal) :
    Scalar.select (Ideal.cmp .ogt (max t (-t)) 0)
        (Scalar.select (Ideal.cmp .olt t 0) (-1 : EReal) 1) t = Ideal.sign t := by
  simp only [Scalar.select, Ideal.cmp]
  rcases lt_trichotomy t 0 with hlt | h0 | hgt
  · have habs : 0 < max t (-t) := (Ideal.zero_lt_max_neg_iff t).mpr hlt.ne
    simp [hlt, habs, Ideal.sign_of_neg hlt]
  · subst h0
    simp [Ideal.sign_zero]
  · have habs : 0 < max t (-t) := (Ideal.zero_lt_max_neg_iff t).mpr hgt.ne'
    simp [hgt, not_lt.mpr hgt.le, habs, Ideal.sign_of_pos hgt]

/-! ## Folds of `max` and `min` as suprema and infima -/

/-- Folding `max` over a finite set from `⊥` is the supremum over the set. -/
theorem fold_max_bot {ι : Type} (s : Finset ι) (f : ι → EReal) : s.fold max ⊥ f = s.sup f := rfl

/-- Folding `min` over a finite set from `⊤` is the infimum over the set. -/
theorem fold_min_top {ι : Type} (s : Finset ι) (f : ι → EReal) : s.fold min ⊤ f = s.inf f := rfl

end LibFinite
-- ==== Proof.LibReduceAll.lean ====
/-
  REDUCTIONS OVER ALL AXES, AS SUPREMA AND INFIMA. A one-operand reduce whose result shape has a single
  index (every axis of the operand is reduced) combines, by its operation, the initial value with EVERY
  element of the operand. For a commutative and associative operation that is the fold of the operation
  over the whole index set (`reduce_all_eq_fold`). On the extended reals, with the operation `max` and
  initial value `⊥` it is the supremum of the operand over all its indices, and with `min` and `⊤` the
  infimum (`reduce_all_max`, `reduce_all_min`; the same with the ideal values' `maximumf` / `minimumf`,
  which are `max` / `min`: `reduce_all_maximumf`, `reduce_all_minimumf`; and at the rank-zero result
  shape, which has exactly one index: `reduce_scalar_max` … `reduce_scalar_minimumf`).
  A supremum or infimum over a whole finite index type does not change under a bijection of index types
  (`sup_univ_comp_equiv`, `inf_univ_comp_equiv`); a shape cast reads its operand through such a bijection
  (equal row-major positions), so it preserves the supremum and the infimum over all indices
  (`sup_univ_shapeCast`, `inf_univ_shapeCast`). Hence two reductions over all axes of arrays that differ
  by a shape cast have the same value.
-/
import Idealize.ShloMosaic.PureOps.Reduce
import Idealize.ShloMosaic.PureOps.Ideal
import Idealize.ShloMosaic.Lib.Pipeline.Value
import Idealize.ShloMosaic.Lib.ValueIdx
noncomputable section
namespace LibReduceAll
open Idealize.ShloMosaic

/-- A reduction over ALL axes (the result shape has a single index) by a commutative and associative
    operation is the fold of that operation, from the initial value's element, over EVERY index of the
    operand: each operand index drops to the one result index. -/
theorem reduce_all_eq_fold {α : Type} {s t u : Shape} {axes : List (Fin s.rank)} [Subsingleton t.Idx]
    (f : α → α → α) [Std.Commutative f] [Std.Associative f] (x : s.Idx → α) (init : u.Idx → α)
    (h : s.ReducesTo axes t) (hu : 0 < u.numel) (j : t.Idx) :
    Host.reduce f x init h hu j = Finset.univ.fold f (init (Shape.Idx.first hu)) x := by
  rw [Host.reduce_eq_fold, Finset.filter_true_of_mem fun i _ => Subsingleton.elim _ _]

/-- On the extended reals, the maximum over all axes from the initial value `⊥` is the supremum of the
    operand over all its indices. -/
theorem reduce_all_max {s t u : Shape} {axes : List (Fin s.rank)} [Subsingleton t.Idx]
    (x : s.Idx → EReal) (init : u.Idx → EReal) (h : s.ReducesTo axes t) (hu : 0 < u.numel) (j : t.Idx)
    (hinit : init (Shape.Idx.first hu) = ⊥) :
    Host.reduce (α := EReal) max x init h hu j = Finset.univ.sup x := by
  rw [reduce_all_eq_fold, hinit]
  rfl

/-- On the extended reals, the minimum over all axes from the initial value `⊤` is the infimum of the
    operand over all its indices. -/
theorem reduce_all_min {s t u : Shape} {axes : List (Fin s.rank)} [Subsingleton t.Idx]
    (x : s.Idx → EReal) (init : u.Idx → EReal) (h : s.ReducesTo axes t) (hu : 0 < u.numel) (j : t.Idx)
    (hinit : init (Shape.Idx.first hu) = ⊤) :
    Host.reduce (α := EReal) min x init h hu j = Finset.univ.inf x := by
  rw [reduce_all_eq_fold, hinit]
  rfl

/-- The same maximum, spelled with the ideal values' `maximumf` (which is `max` on the extended reals). -/
theorem reduce_all_maximumf {s t u : Shape} {axes : List (Fin s.rank)} [Subsingleton t.Idx]
    (x : s.Idx → EReal) (init : u.Idx → EReal) (h : s.ReducesTo axes t) (hu : 0 < u.numel) (j : t.Idx)
    (hinit : init (Shape.Idx.first hu) = ⊥) :
    Host.reduce (α := EReal) (FloatOps.maximumf (F := Ideal) (φ := .f32)) x init h hu j = Finset.univ.sup x :=
  reduce_all_max x init h hu j hinit

/-- The same minimum, spelled with the ideal values' `minimumf` (which is `min` on the extended reals). -/
theorem reduce_all_minimumf {s t u : Shape} {axes : List (Fin s.rank)} [Subsingleton t.Idx]
    (x : s.Idx → EReal) (init : u.Idx → EReal) (h : s.ReducesTo axes t) (hu : 0 < u.numel) (j : t.Idx)
    (hinit : init (Shape.Idx.first hu) = ⊤) :
    Host.reduce (α := EReal) (FloatOps.minimumf (F := Ideal) (φ := .f32)) x init h hu j = Finset.univ.inf x :=
  reduce_all_min x init h hu j hinit

/-- A supremum over a whole finite index type is unchanged by re-indexing along a bijection. -/
theorem sup_univ_comp_equiv {ι κ : Type} [Fintype ι] [Fintype κ] (e : ι ≃ κ) (f : κ → EReal) :
    Finset.univ.sup (fun i => f (e i)) = Finset.univ.sup f := by
  rw [Finset.sup_univ_eq_iSup, Finset.sup_univ_eq_iSup]
  exact e.iSup_comp (g := f)

/-- An infimum over a whole finite index type is unchanged by re-indexing along a bijection. -/
theorem inf_univ_comp_equiv {ι κ : Type} [Fintype ι] [Fintype κ] (e : ι ≃ κ) (f : κ → EReal) :
    Finset.univ.inf (fun i => f (e i)) = Finset.univ.inf f := by
  rw [Finset.inf_univ_eq_iInf, Finset.inf_univ_eq_iInf]
  exact e.iInf_comp (g := f)

/-- A shape cast reads the same elements through a bijection of the index types, so the supremum over
    all indices is the same before and after it. -/
theorem sup_univ_shapeCast {s t : Shape} (x : s.Idx → EReal) (h : s.ShapeCasts t) :
    Finset.univ.sup (shapeCast t x h) = Finset.univ.sup x :=
  sup_univ_comp_equiv (Shape.reshapeEquiv h) x

/-- Likewise the infimum over all indices is the same before and after a shape cast. -/
theorem inf_univ_shapeCast {s t : Shape} (x : s.Idx → EReal) (h : s.ShapeCasts t) :
    Finset.univ.inf (shapeCast t x h) = Finset.univ.inf x :=
  inf_univ_comp_equiv (Shape.reshapeEquiv h) x

/-- The rank-zero shape has exactly one index (the empty tuple of coordinates): any two agree. -/
theorem subsingleton_idx_rank_zero : Subsingleton (⟨0, ![]⟩ : Shape).Idx :=
  ⟨fun _ _ => funext fun d => d.elim0⟩

instance : Subsingleton (⟨0, ![]⟩ : Shape).Idx := subsingleton_idx_rank_zero

/-- So a reduction INTO the rank-zero shape is a reduction over all axes: the maximum is the supremum. -/
example {s u : Shape} {axes : List (Fin s.rank)} (x : s.Idx → EReal) (init : u.Idx → EReal)
    (h : s.ReducesTo axes ⟨0, ![]⟩) (hu : 0 < u.numel) (j : (⟨0, ![]⟩ : Shape).Idx)
    (hinit : init (Shape.Idx.first hu) = ⊥) :
    Host.reduce (α := EReal) (FloatOps.maximumf (F := Ideal) (φ := .f32)) x init h hu j = Finset.univ.sup x :=
  reduce_all_maximumf x init h hu j hinit

/-! The same four statements at the rank-zero result shape itself (it has exactly one index), stated without
    the one-index hypothesis. -/

/-- The maximum over all axes into the rank-zero shape, from `⊥`, is the supremum over all indices. -/
theorem reduce_scalar_max {s u : Shape} {axes : List (Fin s.rank)}
    (x : s.Idx → EReal) (init : u.Idx → EReal) (h : s.ReducesTo axes ⟨0, ![]⟩) (hu : 0 < u.numel)
    (j : (⟨0, ![]⟩ : Shape).Idx) (hinit : init (Shape.Idx.first hu) = ⊥) :
    Host.reduce (α := EReal) max x init h hu j = Finset.univ.sup x :=
  reduce_all_max x init h hu j hinit

/-- The minimum over all axes into the rank-zero shape, from `⊤`, is the infimum over all indices. -/
theorem reduce_scalar_min {s u : Shape} {axes : List (Fin s.rank)}
    (x : s.Idx → EReal) (init : u.Idx → EReal) (h : s.ReducesTo axes ⟨0, ![]⟩) (hu : 0 < u.numel)
    (j : (⟨0, ![]⟩ : Shape).Idx) (hinit : init (Shape.Idx.first hu) = ⊤) :
    Host.reduce (α := EReal) min x init h hu j = Finset.univ.inf x :=
  reduce_all_min x init h hu j hinit

/-- The same maximum spelled with the ideal values' `maximumf`. -/
theorem reduce_scalar_maximumf {s u : Shape} {axes : List (Fin s.rank)}
    (x : s.Idx → EReal) (init : u.Idx → EReal) (h : s.ReducesTo axes ⟨0, ![]⟩) (hu : 0 < u.numel)
    (j : (⟨0, ![]⟩ : Shape).Idx) (hinit : init (Shape.Idx.first hu) = ⊥) :
    Host.reduce (α := EReal) (FloatOps.maximumf (F := Ideal) (φ := .f32)) x init h hu j = Finset.univ.sup x :=
  reduce_all_max x init h hu j hinit

/-- The same minimum spelled with the ideal values' `minimumf`. -/
theorem reduce_scalar_minimumf {s u : Shape} {axes : List (Fin s.rank)}
    (x : s.Idx → EReal) (init : u.Idx → EReal) (h : s.ReducesTo axes ⟨0, ![]⟩) (hu : 0 < u.numel)
    (j : (⟨0, ![]⟩ : Shape).Idx) (hinit : init (Shape.Idx.first hu) = ⊤) :
    Host.reduce (α := EReal) (FloatOps.minimumf (F := Ideal) (φ := .f32)) x init h hu j = Finset.univ.inf x :=
  reduce_all_min x init h hu j hinit

end LibReduceAll
-- ==== Proof.QuantReal.lean ====
/-
  Every intermediate quantity of the quantised two-layer perceptron is a real number when its inputs are.

  The steps `s = max (mx - mn) ε / 255` and `t = max M ε / 127` are quotients of a real that is at least
  `ε > 0` by a positive real, hence positive reals; a zero point is a rounding of a quotient of reals by
  such a step; a quantised entry is a clamp between two real bounds (real whatever is clamped), shifted and
  scaled by reals; the polynomial GELU is built from sums, products, `min`, `max` and the sign of reals.
  Extrema over a nonempty finite index set of reals are attained, hence real.  It follows that the
  quotients `a / s` that are rounded are real, and for a real `d` the straight-through form
  `d + (round d - d)` is `round d`.
-/
import proofs.«108376_j23948737643282_1_alg».proof.Proof.QuantSpec
import proofs.«108376_j23948737643282_1_alg».proof.Proof.LibFinite

noncomputable section

namespace Cert.QuantReal

open Cert.QuantSpec LibFinite Idealize.ShloMosaic Idealize.ShloMosaic.ValueIdx

/-! ## The literals -/

theorem c0_real : IsReal c0 := by
  show IsReal (Ideal.ofBits .f32 0x00000000#32)
  rw [Ideal.ofBits_zero_f32]; exact IsReal.zero

theorem c1_real : IsReal c1 := by
  show IsReal (Ideal.ofBits .f32 0x3F800000#32)
  rw [ofBits_one]; exact IsReal.one

theorem c255_real : IsReal c255 := by
  show IsReal (Ideal.ofBits .f32 0x437F0000#32)
  rw [ofBits_255]; exact IsReal.coe _

theorem c255_pos : 0 < c255 := by
  show 0 < Ideal.ofBits .f32 0x437F0000#32
  rw [ofBits_255]; exact EReal.coe_pos.mpr (by norm_num)

theorem c127_real : IsReal c127 := by
  show IsReal (Ideal.ofBits .f32 0x42FE0000#32)
  rw [ofBits_127]; exact IsReal.coe _

theorem c127_pos : 0 < c127 := by
  show 0 < Ideal.ofBits .f32 0x42FE0000#32
  rw [ofBits_127]; exact EReal.coe_pos.mpr (by norm_num)

theorem cm128_real : IsReal cm128 := by
  show IsReal (Ideal.ofBits .f32 0xC3000000#32)
  rw [ofBits_neg_128]; exact IsReal.coe _

theorem cHalf_real : IsReal cHalf := by
  show IsReal (Ideal.ofBits .f32 0x3F000000#32)
  rw [ofBits_half]; exact IsReal.coe _

theorem cEps_real : IsReal cEps := isReal_322BCC77
theorem cEps_pos : 0 < cEps := pos_322BCC77
theorem cKappa_real : IsReal cKappa := isReal_3F3504F3
theorem cClip_real : IsReal cClip := isReal_3FE26E98
theorem cB_real : IsReal cB := isReal_BFE26E98
theorem cA_real : IsReal cA := isReal_BE93DD98

/-! ## Scalars -/

/-- A real floored at `ε` is a real that is at least `ε > 0`. -/
theorem max_eps_pos {a : EReal} (ha : IsReal a) : IsReal (max a cEps) ∧ 0 < max a cEps :=
  ⟨IsReal.max ha cEps_real, lt_max_of_lt_right cEps_pos⟩

/-- The step of an activation tensor with real extrema is a positive real. -/
theorem actStep_pos {mn mx : EReal} (hmn : IsReal mn) (hmx : IsReal mx) :
    IsReal (actStep mn mx) ∧ 0 < actStep mn mx := by
  obtain ⟨h1, h2⟩ := max_eps_pos (IsReal.sub hmx hmn)
  exact IsReal.div_pos h1 c255_real h2 c255_pos

/-- Its zero point is real: the rounding of a quotient of reals by a nonzero real. -/
theorem actZero_real {mn mx : EReal} (hmn : IsReal mn) (hmx : IsReal mx) : IsReal (actZero mn mx) := by
  obtain ⟨h1, h2⟩ := actStep_pos hmn hmx
  exact IsReal.liftRound _ (IsReal.div hmn.neg h1 h2.ne')

/-- The step of a weight matrix with real greatest magnitude is a positive real. -/
theorem wStep_pos {M : EReal} (hM : IsReal M) : IsReal (wStep M) ∧ 0 < wStep M := by
  obtain ⟨h1, h2⟩ := max_eps_pos hM
  exact IsReal.div_pos h1 c127_real h2 c127_pos

/-- A quantised activation entry is real whatever the entry: the clamp to `[0, 255]` is real. -/
theorem actQ_real {s z : EReal} (a : EReal) (hs : IsReal s) (hz : IsReal z) : IsReal (actQ s z a) :=
  IsReal.mul (IsReal.sub (IsReal.clamp _ c0_real c255_real) hz) hs

/-- A quantised weight entry is real whatever the entry: the clamp to `[-128, 127]` is real. -/
theorem wQ_real {t : EReal} (a : EReal) (ht : IsReal t) : IsReal (wQ t a) :=
  IsReal.mul (IsReal.clamp _ cm128_real c127_real) ht

/-- The polynomial GELU of a real is real. -/
theorem gelu_real {h : EReal} (hh : IsReal h) : IsReal (gelu h) := by
  have ht : IsReal (h * cKappa) := IsReal.mul hh cKappa_real
  have hu : IsReal (min (max (h * cKappa) (-(h * cKappa))) cClip + cB) :=
    IsReal.add (IsReal.min (IsReal.abs ht) cClip_real) cB_real
  exact IsReal.mul (IsReal.mul hh cHalf_real)
    (IsReal.add c1_real (IsReal.mul (IsReal.sign _)
      (IsReal.add (IsReal.mul cA_real (IsReal.mul hu hu)) c1_real)))

/-! ## Arrays -/

/-- The greatest magnitude of a nonempty tensor of reals is real. -/
theorem absMax_real {s : Shape} [Nonempty s.Idx] (w : s.Idx → EReal) (hw : ∀ i, IsReal (w i)) :
    IsReal (absMax w) :=
  IsReal.sup_univ _ fun i => IsReal.abs (hw i)

instance : Nonempty SX.Idx := ⟨ix3 (0 : Fin 64) (0 : Fin 197) (0 : Fin 768)⟩
instance : Nonempty SW1.Idx := ⟨ix2 (0 : Fin 3072) (0 : Fin 768)⟩
instance : Nonempty SW2.Idx := ⟨ix2 (0 : Fin 768) (0 : Fin 3072)⟩
instance : Nonempty SG.Idx := ⟨ix3 (0 : Fin 64) (0 : Fin 197) (0 : Fin 3072)⟩

section
variable (x : SX.Idx → EReal) (w1 : SW1.Idx → EReal) (b1 : SB1.Idx → EReal) (w2 : SW2.Idx → EReal)
  (b2 : SB2.Idx → EReal)

theorem s1_pos (hx : ∀ i, IsReal (x i)) : IsReal (s1 x) ∧ 0 < s1 x :=
  actStep_pos (IsReal.inf_univ x hx) (IsReal.sup_univ x hx)

theorem z1_real (hx : ∀ i, IsReal (x i)) : IsReal (z1 x) :=
  actZero_real (IsReal.inf_univ x hx) (IsReal.sup_univ x hx)

/-- The hidden layer before the nonlinearity: a finite sum of products of reals, plus a real. -/
theorem hid_real (hx : ∀ i, IsReal (x i)) (hw1 : ∀ i, IsReal (w1 i)) (hb1 : ∀ i, IsReal (b1 i))
    (b : Fin 64) (s : Fin 197) (j : Fin 3072) : IsReal (hid x w1 b1 b s j) :=
  IsReal.add
    (IsReal.sum _ _ fun _ _ =>
      IsReal.mul (actQ_real _ (s1_pos x hx).1 (z1_real x hx))
        (wQ_real _ (wStep_pos (absMax_real w1 hw1)).1))
    (hb1 _)

theorem act_real (hx : ∀ i, IsReal (x i)) (hw1 : ∀ i, IsReal (w1 i)) (hb1 : ∀ i, IsReal (b1 i))
    (i : SG.Idx) : IsReal (act x w1 b1 i) :=
  gelu_real (hid_real x w1 b1 hx hw1 hb1 _ _ _)

theorem s2_pos (hx : ∀ i, IsReal (x i)) (hw1 : ∀ i, IsReal (w1 i)) (hb1 : ∀ i, IsReal (b1 i)) :
    IsReal (s2 x w1 b1) ∧ 0 < s2 x w1 b1 :=
  actStep_pos (IsReal.inf_univ _ (act_real x w1 b1 hx hw1 hb1))
    (IsReal.sup_univ _ (act_real x w1 b1 hx hw1 hb1))

theorem z2_real (hx : ∀ i, IsReal (x i)) (hw1 : ∀ i, IsReal (w1 i)) (hb1 : ∀ i, IsReal (b1 i)) :
    IsReal (z2 x w1 b1) :=
  actZero_real (IsReal.inf_univ _ (act_real x w1 b1 hx hw1 hb1))
    (IsReal.sup_univ _ (act_real x w1 b1 hx hw1 hb1))

/-! ## The quotients that are rounded -/

theorem div_x_real (hx : ∀ i, IsReal (x i)) (i : SX.Idx) : IsReal (Ideal.div (x i) (s1 x)) :=
  IsReal.div (hx i) (s1_pos x hx).1 (s1_pos x hx).2.ne'

theorem div_w_real {s : Shape} [Nonempty s.Idx] (w : s.Idx → EReal) (hw : ∀ i, IsReal (w i)) (i : s.Idx) :
    IsReal (Ideal.div (w i) (wStep (absMax w))) :=
  IsReal.div (hw i) (wStep_pos (absMax_real w hw)).1 (wStep_pos (absMax_real w hw)).2.ne'

theorem div_act_real (hx : ∀ i, IsReal (x i)) (hw1 : ∀ i, IsReal (w1 i)) (hb1 : ∀ i, IsReal (b1 i))
    (i : SG.Idx) : IsReal (Ideal.div (act x w1 b1 i) (s2 x w1 b1)) :=
  IsReal.div (act_real x w1 b1 hx hw1 hb1 i) (s2_pos x w1 b1 hx hw1 hb1).1 (s2_pos x w1 b1 hx hw1 hb1).2.ne'

end

/-- Straight-through rounding of a real: `d + (round d - d) = round d`. -/
theorem ste {d : EReal} (hd : IsReal d) : d + (rnd d - d) = rnd d :=
  add_sub_cancel_of_real (rnd d) hd

end Cert.QuantReal

end
-- ==== Proof.RefValue.lean ====
/-
  THE REFERENCE PROGRAM'S RESULT IS THE SPECIFICATION. The reference program is read one operation at a time
  and each intermediate array is identified with the corresponding quantity of the specification, for real
  (finite) inputs.

  * The least and greatest entries of a tensor are reductions over all axes by `min` from `+∞` and by `max`
    from `-∞`: the infimum and the supremum over all indices. From them the program forms the step
    `max (mx - mn) ε / 255` and the zero point `round (-mn / step)` exactly as the specification does.
  * An entry `a` is divided by the step, `d = a / step`, and the program rounds it in the straight-through
    form `d + (round d - d)`. This equals `round d` because `d` is real (for an infinite `d` the difference
    would be undefined); this is the only place where the inputs' finiteness is used. The rest, adding the zero
    point, clamping to `[0, 255]`, subtracting it and scaling by the step, is the specification's quantised
    entry term for term. Weights are treated likewise with the step `max M ε / 127`, `M` the greatest
    magnitude (the supremum of `max a (-a)`), and the clamp `[-128, 127]`.
  * A product of two arrays contracting their last axes is, at each index, the sum over the contracted
    coordinate of the products of the entries; the left entry is read at (batch, token, k) and the right at
    (unit, k), and the bias at the unit.
  * The polynomial GELU is the same expression in the program and in the specification.
  * The second layer repeats the first on the activations.
-/
import proofs.«108376_j23948737643282_1_alg».proof.Proof.Gen.ReferenceIdeal.Read
import proofs.«108376_j23948737643282_1_alg».proof.Proof.QuantSpec
import proofs.«108376_j23948737643282_1_alg».proof.Proof.LibFinite
import proofs.«108376_j23948737643282_1_alg».proof.Proof.LibReduceAll
import proofs.«108376_j23948737643282_1_alg».proof.Proof.QuantReal

noncomputable section

namespace Cert.ReferenceIdeal.RefValue

open Idealize.ShloMosaic Idealize.ShloMosaic.ValueIdx Cert.ReferenceIdeal Cert.ReferenceIdeal.Gen
  Cert.ReferenceIdeal.Read Cert.QuantSpec LibFinite

variable (x : SX.Idx → EReal) (w1 : SW1.Idx → EReal) (b1 : SB1.Idx → EReal) (w2 : SW2.Idx → EReal)
  (b2 : SB2.Idx → EReal)

/-! ## The first activation quantisation: its scalars -/

/-- The least entry of the input: a minimum over all axes from `+∞`. -/
theorem v0_at (j : S_.Idx) : val_main_v0 (F := Ideal) x j = Finset.univ.inf x :=
  LibReduceAll.reduce_scalar_minimumf x _ _ _ j ((val_main_cst_apply _).trans LibFinite.ofBits_pinf)

/-- The greatest entry of the input: a maximum over all axes from `-∞`. -/
theorem v1_at (j : S_.Idx) : val_main_v1 (F := Ideal) x j = Finset.univ.sup x :=
  LibReduceAll.reduce_scalar_maximumf x _ _ _ j ((val_main_cst_0_apply _).trans LibFinite.ofBits_ninf)

/-- The step `max (mx - mn) ε / 255`. -/
theorem v4_at (j : S_.Idx) : val_main_v4 (F := Ideal) x j = s1 x := by
  rw [val_main_v4_apply, val_main_v3_apply, val_main_v2_apply, v1_at, v0_at, val_main_cst_1_apply,
    val_main_cst_2_apply]
  rfl

/-- The zero point `round (-mn / step)`. -/
theorem v7_at (j : S_.Idx) : val_main_v7 (F := Ideal) x j = z1 x := by
  rw [val_main_v7_apply, val_main_v6_apply, val_main_v5_apply, v4_at, v0_at]
  rfl

/-! ## The first activation quantisation: its entries -/

theorem v9_at (i : SX.Idx) : val_main_v9 (F := Ideal) x i = Ideal.div (x i) (s1 x) := by
  rw [val_main_v9_apply, val_main_v8_apply, v4_at]
  rfl

/-- The straight-through form `d + (round d - d)` of the real quotient `d` is `round d`. -/
theorem v12_at (hx : ∀ i, IsReal (x i)) (i : SX.Idx) :
    val_main_v12 (F := Ideal) x i = rnd (Ideal.div (x i) (s1 x)) := by
  rw [val_main_v12_apply, val_main_v11_apply, val_main_v10_apply, v9_at]
  exact QuantReal.ste (QuantReal.div_x_real x hx i)

/-- Shifted by the zero point, clamped to `[0, 255]`, shifted back and scaled by the step. -/
theorem v19_at (hx : ∀ i, IsReal (x i)) (i : SX.Idx) :
    val_main_v19 (F := Ideal) x i = actQ (s1 x) (z1 x) (x i) := by
  simp only [val_main_v19_apply, val_main_v18_apply, v4_at, val_main_v17_apply, val_main_v16_apply, v7_at,
    val_main_v15_apply, val_main_call2_v4_apply, val_main_call2_v3_apply, val_main_cst_4_apply,
    val_main_call2_v2_apply, val_main_call2_v1_apply, val_main_call2_v0_apply, val_main_cst_3_apply,
    val_main_v14_apply, val_main_v13_apply, v12_at x hx]
  rfl

/-! ## The first weight quantisation -/

/-- The greatest magnitude: a maximum over all axes, from `-∞`, of the absolute values. -/
theorem v21_at (j : S_.Idx) : val_main_v21 (F := Ideal) w1 j = absMax w1 :=
  LibReduceAll.reduce_scalar_maximumf (val_main_v20 (F := Ideal) w1) _ _ _ j
    ((val_main_cst_5_apply _).trans LibFinite.ofBits_ninf)

/-- The step `max M ε / 127`. -/
theorem v23_at (j : S_.Idx) : val_main_v23 (F := Ideal) w1 j = wStep (absMax w1) := by
  rw [val_main_v23_apply, val_main_v22_apply, v21_at, val_main_cst_6_apply, val_main_cst_7_apply]
  rfl

theorem v25_at (i : SW1.Idx) : val_main_v25 (F := Ideal) w1 i = Ideal.div (w1 i) (wStep (absMax w1)) := by
  rw [val_main_v25_apply, val_main_v24_apply, v23_at]
  rfl

theorem v28_at (hw1 : ∀ i, IsReal (w1 i)) (i : SW1.Idx) :
    val_main_v28 (F := Ideal) w1 i = rnd (Ideal.div (w1 i) (wStep (absMax w1))) := by
  rw [val_main_v28_apply, val_main_v27_apply, val_main_v26_apply, v25_at]
  exact QuantReal.ste (QuantReal.div_w_real w1 hw1 i)

/-- Clamped to `[-128, 127]` and scaled by the step. -/
theorem v31_at (hw1 : ∀ i, IsReal (w1 i)) (i : SW1.Idx) :
    val_main_v31 (F := Ideal) w1 i = wQ (wStep (absMax w1)) (w1 i) := by
  simp only [val_main_v31_apply, val_main_v30_apply, v23_at, val_main_v29_apply, val_main_call4_v4_apply,
    val_main_call4_v3_apply, val_main_cst_9_apply, val_main_call4_v2_apply, val_main_call4_v1_apply,
    val_main_call4_v0_apply, val_main_cst_8_apply, v28_at w1 hw1]
  rfl

/-! ## The hidden layer -/

/-- The left operand of the product is read at (batch, token, k). -/
theorem lidx32 (i : SG.Idx) (k : Fin 768) : lidx_main_v32 i k = ix3 (n0 := 64) (n1 := 197) (n2 := 768) (i 0) (i 1) k := by
  funext a
  match a with
  | ⟨0, _⟩ => rfl
  | ⟨1, _⟩ => rfl
  | ⟨2, _⟩ => rfl

/-- The right operand is read at (hidden unit, k). -/
theorem ridx32 (i : SG.Idx) (k : Fin 768) : ridx_main_v32 i k = ix2 (n0 := 3072) (n1 := 768) (i 2) k := by
  funext a
  match a with
  | ⟨0, _⟩ => rfl
  | ⟨1, _⟩ => rfl

/-- The bias is read at the hidden unit. -/
theorem bidx34 (i : SG.Idx) : idx_main_v33 (idx_main_v34 i) = ix1 (n := 3072) (i 2) := by
  funext a
  match a with
  | ⟨0, _⟩ => rfl

/-- The sum over `k` of quantised input times quantised weight, plus the bias. -/
theorem v35_at (hx : ∀ i, IsReal (x i)) (hw1 : ∀ i, IsReal (w1 i)) (i : SG.Idx) :
    val_main_v35 (F := Ideal) x w1 b1 i = hid x w1 b1 (i 0) (i 1) (i 2) := by
  rw [val_main_v35_apply, val_main_v32_apply, val_main_v34_apply, val_main_v33_apply, bidx34]
  simp only [v19_at x hx, v31_at w1 hw1]
  simp only [lidx32, ridx32]
  rfl

/-- The polynomial GELU of the hidden layer. -/
theorem v54_at (hx : ∀ i, IsReal (x i)) (hw1 : ∀ i, IsReal (w1 i)) (i : SG.Idx) :
    val_main_v54 (F := Ideal) x w1 b1 i = act x w1 b1 i := by
  simp only [val_main_v54_apply, val_main_v53_apply, val_main_v52_apply, val_main_cst_16_apply,
    val_main_v51_apply, val_main_v50_apply, val_main_cst_15_apply, val_main_v49_apply, val_main_v48_apply,
    val_main_v47_apply, val_main_cst_14_apply, val_main_v46_apply, val_main_v45_apply, val_main_cst_13_apply,
    val_main_v44_apply, val_main_v43_apply, val_main_v42_apply, val_main_cst_12_apply, val_main_v41_apply,
    val_main_v40_apply, val_main_v39_apply, val_main_cst_11_apply, val_main_v38_apply, val_main_v37_apply,
    val_main_v36_apply, val_main_cst_10_apply, v35_at x w1 b1 hx hw1]
  rfl

theorem v54_eq (hx : ∀ i, IsReal (x i)) (hw1 : ∀ i, IsReal (w1 i)) :
    val_main_v54 (F := Ideal) x w1 b1 = act x w1 b1 :=
  funext (v54_at x w1 b1 hx hw1)

/-! ## The second activation quantisation -/

/-- The least entry of the activations. -/
theorem v55_at (hx : ∀ i, IsReal (x i)) (hw1 : ∀ i, IsReal (w1 i)) (j : S_.Idx) :
    val_main_v55 (F := Ideal) x w1 b1 j = Finset.univ.inf (act x w1 b1) := by
  unfold val_main_v55
  rw [v54_eq x w1 b1 hx hw1]
  exact LibReduceAll.reduce_scalar_minimumf _ _ _ _ j ((val_main_cst_17_apply _).trans LibFinite.ofBits_pinf)

/-- The greatest entry of the activations. -/
theorem v56_at (hx : ∀ i, IsReal (x i)) (hw1 : ∀ i, IsReal (w1 i)) (j : S_.Idx) :
    val_main_v56 (F := Ideal) x w1 b1 j = Finset.univ.sup (act x w1 b1) := by
  unfold val_main_v56
  rw [v54_eq x w1 b1 hx hw1]
  exact LibReduceAll.reduce_scalar_maximumf _ _ _ _ j ((val_main_cst_18_apply _).trans LibFinite.ofBits_ninf)

theorem v59_at (hx : ∀ i, IsReal (x i)) (hw1 : ∀ i, IsReal (w1 i)) (j : S_.Idx) :
    val_main_v59 (F := Ideal) x w1 b1 j = s2 x w1 b1 := by
  rw [val_main_v59_apply, val_main_v58_apply, val_main_v57_apply, v56_at x w1 b1 hx hw1, v55_at x w1 b1 hx hw1,
    val_main_cst_19_apply, val_main_cst_20_apply]
  rfl

theorem v62_at (hx : ∀ i, IsReal (x i)) (hw1 : ∀ i, IsReal (w1 i)) (j : S_.Idx) :
    val_main_v62 (F := Ideal) x w1 b1 j = z2 x w1 b1 := by
  rw [val_main_v62_apply, val_main_v61_apply, val_main_v60_apply, v59_at x w1 b1 hx hw1, v55_at x w1 b1 hx hw1]
  rfl

theorem v64_at (hx : ∀ i, IsReal (x i)) (hw1 : ∀ i, IsReal (w1 i)) (i : SG.Idx) :
    val_main_v64 (F := Ideal) x w1 b1 i = Ideal.div (act x w1 b1 i) (s2 x w1 b1) := by
  rw [val_main_v64_apply, val_main_v63_apply, v59_at x w1 b1 hx hw1, v54_at x w1 b1 hx hw1]
  rfl

theorem v67_at (hx : ∀ i, IsReal (x i)) (hw1 : ∀ i, IsReal (w1 i)) (hb1 : ∀ i, IsReal (b1 i)) (i : SG.Idx) :
    val_main_v67 (F := Ideal) x w1 b1 i = rnd (Ideal.div (act x w1 b1 i) (s2 x w1 b1)) := by
  rw [val_main_v67_apply, val_main_v66_apply, val_main_v65_apply, v64_at x w1 b1 hx hw1]
  exact QuantReal.ste (QuantReal.div_act_real x w1 b1 hx hw1 hb1 i)

theorem v74_at (hx : ∀ i, IsReal (x i)) (hw1 : ∀ i, IsReal (w1 i)) (hb1 : ∀ i, IsReal (b1 i)) (i : SG.Idx) :
    val_main_v74 (F := Ideal) x w1 b1 i = actQ (s2 x w1 b1) (z2 x w1 b1) (act x w1 b1 i) := by
  simp only [val_main_v74_apply, val_main_v73_apply, v59_at x w1 b1 hx hw1, val_main_v72_apply,
    val_main_v71_apply, v62_at x w1 b1 hx hw1, val_main_v70_apply, val_main_call7_v4_apply,
    val_main_call7_v3_apply, val_main_cst_22_apply, val_main_call7_v2_apply, val_main_call7_v1_apply,
    val_main_call7_v0_apply, val_main_cst_21_apply, val_main_v69_apply, val_main_v68_apply,
    v67_at x w1 b1 hx hw1 hb1]
  rfl

/-! ## The second weight quantisation -/

theorem v76_at (j : S_.Idx) : val_main_v76 (F := Ideal) w2 j = absMax w2 :=
  LibReduceAll.reduce_scalar_maximumf (val_main_v75 (F := Ideal) w2) _ _ _ j
    ((val_main_cst_23_apply _).trans LibFinite.ofBits_ninf)

theorem v78_at (j : S_.Idx) : val_main_v78 (F := Ideal) w2 j = wStep (absMax w2) := by
  rw [val_main_v78_apply, val_main_v77_apply, v76_at, val_main_cst_24_apply, val_main_cst_25_apply]
  rfl

theorem v80_at (i : SW2.Idx) : val_main_v80 (F := Ideal) w2 i = Ideal.div (w2 i) (wStep (absMax w2)) := by
  rw [val_main_v80_apply, val_main_v79_apply, v78_at]
  rfl

theorem v83_at (hw2 : ∀ i, IsReal (w2 i)) (i : SW2.Idx) :
    val_main_v83 (F := Ideal) w2 i = rnd (Ideal.div (w2 i) (wStep (absMax w2))) := by
  rw [val_main_v83_apply, val_main_v82_apply, val_main_v81_apply, v80_at]
  exact QuantReal.ste (QuantReal.div_w_real w2 hw2 i)

theorem v86_at (hw2 : ∀ i, IsReal (w2 i)) (i : SW2.Idx) :
    val_main_v86 (F := Ideal) w2 i = wQ (wStep (absMax w2)) (w2 i) := by
  simp only [val_main_v86_apply, val_main_v85_apply, v78_at, val_main_v84_apply, val_main_call9_v4_apply,
    val_main_call9_v3_apply, val_main_cst_27_apply, val_main_call9_v2_apply, val_main_call9_v1_apply,
    val_main_call9_v0_apply, val_main_cst_26_apply, v83_at w2 hw2]
  rfl

/-! ## The output -/

theorem lidx87 (i : SX.Idx) (k : Fin 3072) : lidx_main_v87 i k = ix3 (n0 := 64) (n1 := 197) (n2 := 3072) (i 0) (i 1) k := by
  funext a
  match a with
  | ⟨0, _⟩ => rfl
  | ⟨1, _⟩ => rfl
  | ⟨2, _⟩ => rfl

theorem ridx87 (i : SX.Idx) (k : Fin 3072) : ridx_main_v87 i k = ix2 (n0 := 768) (n1 := 3072) (i 2) k := by
  funext a
  match a with
  | ⟨0, _⟩ => rfl
  | ⟨1, _⟩ => rfl

theorem bidx89 (i : SX.Idx) : idx_main_v88 (idx_main_v89 i) = ix1 (n := 768) (i 2) := by
  funext a
  match a with
  | ⟨0, _⟩ => rfl

/-- The sum over the hidden units of quantised activation times quantised weight, plus the bias. -/
theorem v90_at (hx : ∀ i, IsReal (x i)) (hw1 : ∀ i, IsReal (w1 i)) (hb1 : ∀ i, IsReal (b1 i))
    (hw2 : ∀ i, IsReal (w2 i)) (i : SX.Idx) :
    val_main_v90 (F := Ideal) x w1 b1 w2 b2 i = out x w1 b1 w2 b2 i := by
  rw [val_main_v90_apply, val_main_v87_apply, val_main_v89_apply, val_main_v88_apply, bidx89]
  simp only [v74_at x w1 b1 hx hw1 hb1, v86_at w2 hw2]
  simp only [lidx87, ridx87]
  rfl

/-- The reference program's result is the specification. -/
theorem ref_eq (hx : ∀ i, IsReal (x i)) (hw1 : ∀ i, IsReal (w1 i)) (hb1 : ∀ i, IsReal (b1 i))
    (hw2 : ∀ i, IsReal (w2 i)) :
    val_main_v90 (F := Ideal) x w1 b1 w2 b2 = out x w1 b1 w2 b2 :=
  funext (v90_at x w1 b1 w2 b2 hx hw1 hb1 hw2)

end Cert.ReferenceIdeal.RefValue

end
-- ==== Proof.FiniteInputs.lean ====
/-
  The precondition "every input entry has finite magnitude", decoded.

  The predicate is, for each of the five input tensors, the conjunction over all entries `a` of the
  comparison `|a| < +∞`, and the five conjunctions joined by `and`.  A conjunction that is true has only
  true conjuncts; `|a| = max a (-a) < ⊤` says `a < ⊤` and `-a < ⊤`, that is `a ≠ ⊤` and `a ≠ ⊥`:
  every entry of every input is a real number.
-/
import proofs.«108376_j23948737643282_1_alg».proof.Pre_finite_inputs
import proofs.«108376_j23948737643282_1_alg».proof.Proof.Gen.Pre_finite_inputs
import proofs.«108376_j23948737643282_1_alg».proof.Proof.LibFinite
import Idealize.ShloMosaic.Lib.ReduceAll
import Idealize.ShloMosaic.Lib.ValueIdx

noncomputable section

namespace Cert.FiniteInputs

open Idealize.ShloMosaic Idealize.ShloMosaic.ValueIdx Cert.Pre_finite_inputs LibFinite

/-- The shape with no axes has exactly one index. -/
instance : Subsingleton S_.Idx := ⟨fun _ _ => funext fun d => d.elim0⟩

/-- A one-bit word made from a Boolean is `1` exactly when the Boolean is true. -/
theorem ofBool_eq_one {b : Bool} : BitVec.ofBool b = 1#1 ↔ b = true := by cases b <;> decide

/-- An extended real whose magnitude `max a (-a)` is below `⊤` is real: `a < ⊤` rules out `⊤`, and
    `-a < ⊤` rules out `⊥`, whose negation is `⊤`. -/
theorem isReal_of_abs_lt_top {a : EReal} (h : max a (-a) < ⊤) : IsReal a := by
  obtain ⟨h1, h2⟩ := max_lt_iff.1 h
  refine ⟨ne_of_lt h1, fun hb => ?_⟩
  rw [hb, EReal.neg_bot] at h2
  exact lt_irrefl _ h2

/-- The comparison `|a| < w` against the word `w` that denotes `+∞`, when it answers `1`, says that
    `a` is real. -/
theorem isReal_of_cmp {a : EReal}
    (h : Ideal.cmp .olt (max a (-a)) (Ideal.ofBits .f32 0x7F800000#32) = 1#1) : IsReal a := by
  rw [ofBits_pinf] at h
  simp only [Ideal.cmp, ofBool_eq_one, decide_eq_true_eq] at h
  exact isReal_of_abs_lt_top h

/-- One input's part of the predicate: the conjunction over all entries of `|a i| < +∞` (the bound a
    scalar constant broadcast to the tensor's shape). If it is `1`, every entry is real. -/
theorem real_of_all {s : Shape} {axes : List (Fin s.rank)} (a : s.Idx → EReal)
    (hb : S_.BroadcastsInDim s (![] : Fin 0 → Fin s.rank)) (hr : s.ReducesTo axes S_) (hu : 0 < S_.numel)
    (e : Host.reduce IntOp.andi
        (cmpf .olt (Host.absf (F := Ideal) (φ := .f32) a)
          (broadcastInDim s ![] hb (constant (F := Ideal) S_ .f32 0x7F800000#32)))
        (constantI S_ 1 1#1) hr hu ix0 = 1#1) :
    ∀ i, IsReal (a i) := by
  intro i
  have h := Host.reduce_andi_all _ _ hr hu ix0 e i
  exact isReal_of_cmp h

/-- The precondition decoded: if the predicate answers `1`, every entry of each of the five inputs is real. -/
theorem inputs_real [Cert.Pre_finite_inputs.Facts] (a0 : S64x197x768.Idx → EReal) (a1 : S3072x768.Idx → EReal)
    (a2 : S3072.Idx → EReal) (a3 : S768x3072.Idx → EReal) (a4 : S768.Idx → EReal)
    (h : Cert.Pre_finite_inputs.fn (F := Ideal) a0 a1 a2 a3 a4 = fun _ => 1#1) :
    (∀ i, LibFinite.IsReal (a0 i)) ∧ (∀ i, LibFinite.IsReal (a1 i)) ∧ (∀ i, LibFinite.IsReal (a2 i)) ∧
      (∀ i, LibFinite.IsReal (a3 i)) ∧ (∀ i, LibFinite.IsReal (a4 i)) := by
  have h0 := congrFun h ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2,
    real_of_all a3 _ _ _ e3, real_of_all a4 _ _ _ e4⟩

end Cert.FiniteInputs

end
-- ==== Proof.HostStages.lean ====
/-
  The host operations around the two pipelined calls, named. Before the first call the program reshapes the inputs
  to [12608, 768] rows and pads them to 12800, computes the activation step and zero point from the rows' least and
  greatest entries, quantises both weight matrices (and transposes them), and reshapes the biases to rows. Between the
  calls it cuts the first call's result back to 12608 rows, computes the second step and zero point from it, and pads
  it again. After the second call it cuts the result to 12608 rows and reshapes it to [64, 197, 768].
  Each array a call finds, and the program's result, is stated here as those operations' term of the arguments (or of
  the first call's result array); the terms are read entry by entry elsewhere.
-/
import proofs.«108376_j23948737643282_1_alg».proof.Proof.Gen.KernelIdeal.Frame
import Idealize.ShloMosaic.Lib.StableHlo.Run
import Idealize.ShloMosaic.PureOps.Ideal

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo

/-! ## The operations' terms -/

/-- The activation step: (max - min, floored at a small positive constant) / 255. -/
abbrev stepOf {s : Shape} {axes : List (Fin s.rank)} (v : FVec Ideal s .f32) (h : s.ReducesTo axes S_) : FVec Ideal S_ .f32 :=
  Host.divf (maximumf (subf (Host.reduce FloatOps.maximumf v (constant S_ .f32 0xFF800000#32) h h_S_)
    (Host.reduce FloatOps.minimumf v (constant S_ .f32 0x7F800000#32) h h_S_)) (constant S_ .f32 0x322BCC77#32)) (constant S_ .f32 0x437F0000#32)

/-- The activation zero point: round (-min / step). -/
abbrev zeroOf {s : Shape} {axes : List (Fin s.rank)} (v : FVec Ideal s .f32) (h : s.ReducesTo axes S_) : FVec Ideal S_ .f32 :=
  Host.roundeven (Host.divf (Host.negf (Host.reduce FloatOps.minimumf v (constant S_ .f32 0x7F800000#32) h h_S_)) (stepOf v h))

/-- The weight step: (greatest magnitude, floored) / 127. -/
abbrev wStepOf {s : Shape} {axes : List (Fin s.rank)} (w : FVec Ideal s .f32) (h : s.ReducesTo axes S_) : FVec Ideal S_ .f32 :=
  Host.divf (maximumf (Host.reduce FloatOps.maximumf (Host.absf w) (constant S_ .f32 0xFF800000#32) h h_S_) (constant S_ .f32 0x322BCC77#32))
    (constant S_ .f32 0x42FE0000#32)

/-- The quantised weights: clamp (round (w / step)) to [-128, 127], times the step. -/
abbrev wQOf {s : Shape} {axes : List (Fin s.rank)} (w : FVec Ideal s .f32) (h : s.ReducesTo axes S_) (hb : S_.BroadcastsInDim s ![]) : FVec Ideal s .f32 :=
  mulf (minimumf (broadcastInDim s ![] hb (id (constant S_ .f32 0x42FE0000#32)))
    (maximumf (broadcastInDim s ![] hb (id (constant S_ .f32 0xC3000000#32))) (Host.roundeven (Host.divf w (broadcastInDim s ![] hb (wStepOf w h))))))
    (broadcastInDim s ![] hb (wStepOf w h))

/-- The inputs as [12608, 768] rows. -/
abbrev rows (x : S64x197x768.Idx → EReal) : S12608x768.Idx → EReal := shapeCast S12608x768 x shapeCasts_S64x197x768_S12608x768

/-- The padding value: the integer zero converted. -/
abbrev padVal : S_.Idx → EReal := (sitofp .f32 (constantI S_ 32 0#32) : FVec Ideal S_ .f32)

variable (m : (ℓ : Loc nD τ sig) → Buf (Elt Ideal) ℓ) (ρ : Dev nD → PrngReg)

/-! ## What the first call finds -/

set_option maxHeartbeats 4000000 in
theorem entry0_x (c : Dev nD) :
    (V13 m ρ c main_v1 : S12800x768.Idx → EReal) = pad S12800x768 ![0, 0] ![192, 0] ![0, 0] (rows (m ((c : Thread nD τ).loc main_arg0))) padVal pads_S12608x768_S12800x768_01920_000 h_S_ := by
  show W13 m ρ c (Proc.devRef .tc main_v1) = _
  dsimp only [W13, W12, W11, W10, W9, W8, W7, W6, W5, W4, W3, W2, W1, W0]
  after_results_simp
  rfl

set_option maxHeartbeats 4000000 in
theorem entry0_s (c : Dev nD) :
    (V13 m ρ c main_v36 : S1x1.Idx → EReal) = shapeCast S1x1 (stepOf (rows (m ((c : Thread nD τ).loc main_arg0))) reducesTo_S12608x768_S_d0_1) shapeCasts_S_S1x1 := by
  show W13 m ρ c (Proc.devRef .tc main_v36) = _
  dsimp only [W13, W12, W11, W10, W9, W8, W7, W6, W5, W4, W3, W2, W1, W0]
  after_results_simp
  rfl

set_option maxHeartbeats 4000000 in
theorem entry0_z (c : Dev nD) :
    (V13 m ρ c main_v37 : S1x1.Idx → EReal) = shapeCast S1x1 (zeroOf (rows (m ((c : Thread nD τ).loc main_arg0))) reducesTo_S12608x768_S_d0_1) shapeCasts_S_S1x1 := by
  show W13 m ρ c (Proc.devRef .tc main_v37) = _
  dsimp only [W13, W12, W11, W10, W9, W8, W7, W6, W5, W4, W3, W2, W1, W0]
  after_results_simp
  rfl

set_option maxHeartbeats 4000000 in
theorem entry0_w (c : Dev nD) :
    (V13 m ρ c main_v23 : S768x3072.Idx → EReal) = truncf .bf16 (transpose S768x3072 [1, 0] (wQOf (m ((c : Thread nD τ).loc main_arg1)) reducesTo_S3072x768_S_d0_1 bcast_S_S3072x768) transposes_S3072x768_S768x3072_1_0) bitsLt_bf16_f32 := by
  show W13 m ρ c (Proc.devRef .tc main_v23) = _
  dsimp only [W13, W12, W11, W10, W9, W8, W7, W6, W5, W4, W3, W2, W1, W0]
  after_results_simp
  rfl

set_option maxHeartbeats 4000000 in
theorem entry0_b (c : Dev nD) :
    (V13 m ρ c main_v26 : S1x3072.Idx → EReal) = shapeCast S1x3072 (m ((c : Thread nD τ).loc main_arg2) : S3072.Idx → EReal) shapeCasts_S3072_S1x3072 := by
  show W13 m ρ c (Proc.devRef .tc main_v26) = _
  dsimp only [W13, W12, W11, W10, W9, W8, W7, W6, W5, W4, W3, W2, W1, W0]
  after_results_simp
  rfl

/-! ## What the second call finds, from the first call's result array -/

/-- The first call's result cut back to the 12608 true rows. -/
abbrev cut (A : S12800x3072.Idx → EReal) : S12608x3072.Idx → EReal :=
  extractStridedSlice S12608x3072 ![0, 0] A slices_S12800x3072_S12608x3072_0_0

set_option maxHeartbeats 4000000 in
theorem entry1_g (c : Dev nD) :
    (V18 m ρ c main_v50 : S12800x3072.Idx → EReal) = pad S12800x3072 ![0, 0] ![192, 0] ![0, 0] (cut (W14 m ρ c (Proc.devRef .tc main_v38))) padVal pads_S12608x3072_S12800x3072_01920_000 h_S_ := by
  show W18 m ρ c (Proc.devRef .tc main_v50) = _
  dsimp only [W18, W17, W16, W15]
  after_results_simp
  rfl

set_option maxHeartbeats 4000000 in
theorem entry1_s (c : Dev nD) :
    (V18 m ρ c main_v48 : S1x1.Idx → EReal) = shapeCast S1x1 (stepOf (cut (W14 m ρ c (Proc.devRef .tc main_v38))) reducesTo_S12608x3072_S_d0_1) shapeCasts_S_S1x1 := by
  show W18 m ρ c (Proc.devRef .tc main_v48) = _
  dsimp only [W18, W17, W16, W15]
  after_results_simp
  rfl

set_option maxHeartbeats 4000000 in
theorem entry1_z (c : Dev nD) :
    (V18 m ρ c main_v49 : S1x1.Idx → EReal) = shapeCast S1x1 (zeroOf (cut (W14 m ρ c (Proc.devRef .tc main_v38))) reducesTo_S12608x3072_S_d0_1) shapeCasts_S_S1x1 := by
  show W18 m ρ c (Proc.devRef .tc main_v49) = _
  dsimp only [W18, W17, W16, W15]
  after_results_simp
  rfl

set_option maxHeartbeats 4000000 in
/-- The second weight matrix and bias were prepared before the first call, which writes neither. -/
theorem entry1_w (c : Dev nD) :
    (V18 m ρ c main_v25 : S3072x768.Idx → EReal) = truncf .bf16 (transpose S3072x768 [1, 0] (wQOf (m ((c : Thread nD τ).loc main_arg3)) reducesTo_S768x3072_S_d0_1 bcast_S_S768x3072) transposes_S768x3072_S3072x768_1_0) bitsLt_bf16_f32 := by
  show W18 m ρ c (Proc.devRef .tc main_v25) = _
  dsimp only [W18, W17, W16, W15]
  after_results_simp
  rw [W14_of_ne m ρ c main_v25 (fun w => by fin_cases w <;> decide)]
  dsimp only [W13, W12, W11, W10, W9, W8, W7, W6, W5, W4, W3, W2, W1, W0]
  after_results_simp
  rfl

set_option maxHeartbeats 4000000 in
theorem entry1_b (c : Dev nD) :
    (V18 m ρ c main_v27 : S1x768.Idx → EReal) = shapeCast S1x768 (m ((c : Thread nD τ).loc main_arg4) : S768.Idx → EReal) shapeCasts_S768_S1x768 := by
  show W18 m ρ c (Proc.devRef .tc main_v27) = _
  dsimp only [W18, W17, W16, W15]
  after_results_simp
  rw [W14_of_ne m ρ c main_v27 (fun w => by fin_cases w <;> decide)]
  dsimp only [W13, W12, W11, W10, W9, W8, W7, W6, W5, W4, W3, W2, W1, W0]
  after_results_simp
  rfl

/-! ## The program's result, from the second call's result array -/

set_option maxHeartbeats 4000000 in
theorem result_eq (c : Dev nD) :
    (W20 m ρ c (Proc.devRef .tc main_v53) : S64x197x768.Idx → EReal) = shapeCast S64x197x768 (extractStridedSlice S12608x768 ![0, 0] (W19 m ρ c (Proc.devRef .tc main_v51) : S12800x768.Idx → EReal) slices_S12800x768_S12608x768_0_0) shapeCasts_S12608x768_S64x197x768 := by
  dsimp only [W20]
  after_results_simp
  rfl

end Cert.KernelIdeal.HostStages

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.Payload.lean ====
/-
  What one grid point of each pipelined call computes, read at one entry of its block.

  First call: from a [256, 768] block of inputs, the step and zero point (one-entry blocks), the whole [768, 3072]
  weight matrix and the [1, 3072] bias row, entry (p, j) of the [256, 3072] result block is the polynomial GELU of
  `(∑ k, q(x p k) · w k j) + bias j` where `q` quantises to 0 … 255 about the zero point and scales back.
  Second call: the same without the nonlinearity, from a [256, 3072] block and a [3072, 768] weight matrix.

  The kernel spells the sign of `t` as "where |t| > 0: -1 if t < 0, else 1; elsewhere t itself", which is the sign
  function of the extended reals at every argument.
-/
import proofs.«108376_j23948737643282_1_alg».proof.Proof.Gen.KernelIdeal.Skeleton
import proofs.«108376_j23948737643282_1_alg».proof.Proof.QuantSpec
import proofs.«108376_j23948737643282_1_alg».proof.Proof.LibDense
import proofs.«108376_j23948737643282_1_alg».proof.Proof.LibFinite
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.QuantSpec
open Idealize.ShloMosaic Idealize.ShloMosaic.ValueIdx

/-- The one entry of a one-entry block. -/
theorem extract00 {α : Type} (v : S1x1.Idx → α) (h : ∀ a, (![0, 0] : Fin 2 → Nat) a < S1x1.size a) :
    extractAt ![0, 0] v h = v (ix2 (0 : Fin 1) (0 : Fin 1)) :=
  congrArg v (funext fun a => by match a with | ⟨0, _⟩ => rfl | ⟨1, _⟩ => rfl)

/-- The GELU polynomial with the sign spelt by two comparisons and two selections. -/
def geluSel (h : EReal) : EReal :=
  (h * cHalf) * (c1 + Scalar.select (Ideal.cmp .ogt (max (h * cKappa) (-(h * cKappa))) c0)
      (Scalar.select (Ideal.cmp .olt (h * cKappa) c0) (Ideal.ofBits .f32 0xBF800000#32) c1) (h * cKappa)
    * (cA * ((min (max (h * cKappa) (-(h * cKappa))) cClip + cB) * (min (max (h * cKappa) (-(h * cKappa))) cClip + cB)) + c1))

/-- The two spellings of the sign agree everywhere on the extended reals. -/
theorem geluSel_eq (h : EReal) : geluSel h = gelu h := by
  unfold geluSel gelu
  rw [← LibFinite.sign_eq_select (h * cKappa)]
  simp only [c0, c1, Ideal.ofBits_zero_f32, LibFinite.ofBits_one, LibFinite.ofBits_neg_one]

/-! ## First call -/

/-- The affine layer of the first call at (p, j). -/
theorem pay2_apply (s z : Vec Ideal S1x1 .f32) (xb : Vec Ideal S256x768 .f32) (wb : Vec Ideal S768x3072 .bf16)
    (bb : Vec Ideal S1x3072 .f32) (p : Fin 256) (j : Fin 3072) :
    k0_pay2 (F := Ideal) s z xb wb bb (ix2 p j)
      = (∑ k : Fin 768, actQ (s (ix2 (0 : Fin 1) (0 : Fin 1))) (z (ix2 (0 : Fin 1) (0 : Fin 1))) (xb (ix2 p k)) * wb (ix2 k j))
        + bb (ix2 (0 : Fin 1) j) := by
  unfold k0_pay2
  simp only [shapeCast_self, extract00]
  refine (Cert.LibDense.dense_apply dot_S256x768_S768x3072_S256x3072_1_0_0_1_n_n_wf (φ₁ := .bf16) (φ₂ := .bf16) _ wb bb _ p j).trans ?_
  rfl

/-- The first call's stored value at (p, j). -/
theorem pay1_apply (s z : Vec Ideal S1x1 .f32) (xb : Vec Ideal S256x768 .f32) (wb : Vec Ideal S768x3072 .bf16)
    (bb : Vec Ideal S1x3072 .f32) (p : Fin 256) (j : Fin 3072) :
    k0_pay1 (F := Ideal) (k0_pay2 s z xb wb bb) (k0_pay4 s z xb wb bb) (k0_pay5 s z xb wb bb) (k0_pay6 (F := Ideal)) (ix2 p j)
      = gelu ((∑ k : Fin 768, actQ (s (ix2 (0 : Fin 1) (0 : Fin 1))) (z (ix2 (0 : Fin 1) (0 : Fin 1))) (xb (ix2 p k)) * wb (ix2 k j))
        + bb (ix2 (0 : Fin 1) j)) := by
  rw [← pay2_apply, ← geluSel_eq]
  rfl

/-- The same at a block index not yet split into its coordinates. -/
theorem pay1_at (s z : Vec Ideal S1x1 .f32) (xb : Vec Ideal S256x768 .f32) (wb : Vec Ideal S768x3072 .bf16)
    (bb : Vec Ideal S1x3072 .f32) (y : S256x3072.Idx) :
    k0_pay1 (F := Ideal) (k0_pay2 s z xb wb bb) (k0_pay4 s z xb wb bb) (k0_pay5 s z xb wb bb) (k0_pay6 (F := Ideal)) y
      = gelu ((∑ k : Fin 768, actQ (s (ix2 (0 : Fin 1) (0 : Fin 1))) (z (ix2 (0 : Fin 1) (0 : Fin 1))) (xb (ix2 (y 0) k)) * wb (ix2 k (y 1)))
        + bb (ix2 (0 : Fin 1) (y 1))) := by
  obtain ⟨p, j, rfl⟩ : ∃ (p : Fin 256) (j : Fin 3072), y = ix2 p j := ⟨y 0, y 1, eq_ix2 y⟩
  exact pay1_apply s z xb wb bb p j

/-! ## Second call -/

/-- The second call's stored value at (p, d). -/
theorem pay1'_apply (s z : Vec Ideal S1x1 .f32) (gb : Vec Ideal S256x3072 .f32) (wb : Vec Ideal S3072x768 .bf16)
    (bb : Vec Ideal S1x768 .f32) (p : Fin 256) (d : Fin 768) :
    k1_pay1 (F := Ideal) s z gb wb bb (ix2 p d)
      = (∑ j : Fin 3072, actQ (s (ix2 (0 : Fin 1) (0 : Fin 1))) (z (ix2 (0 : Fin 1) (0 : Fin 1))) (gb (ix2 p j)) * wb (ix2 j d))
        + bb (ix2 (0 : Fin 1) d) := by
  unfold k1_pay1
  simp only [shapeCast_self, extract00]
  refine (Cert.LibDense.dense_apply dot_S256x3072_S3072x768_S256x768_1_0_0_1_n_n_wf (φ₁ := .bf16) (φ₂ := .bf16) _ wb bb _ p d).trans ?_
  rfl

/-- The same at a block index not yet split into its coordinates. -/
theorem pay1'_at (s z : Vec Ideal S1x1 .f32) (gb : Vec Ideal S256x3072 .f32) (wb : Vec Ideal S3072x768 .bf16)
    (bb : Vec Ideal S1x768 .f32) (y : S256x768.Idx) :
    k1_pay1 (F := Ideal) s z gb wb bb y
      = (∑ j : Fin 3072, actQ (s (ix2 (0 : Fin 1) (0 : Fin 1))) (z (ix2 (0 : Fin 1) (0 : Fin 1))) (gb (ix2 (y 0) j)) * wb (ix2 j (y 1)))
        + bb (ix2 (0 : Fin 1) (y 1)) := by
  obtain ⟨p, d, rfl⟩ : ∃ (p : Fin 256) (d : Fin 768), y = ix2 p d := ⟨y 0, y 1, eq_ix2 y⟩
  exact pay1'_apply s z gb wb bb p d

end Cert.KernelIdeal.Payload

end
-- ==== Proof.Region0.lean ====
/-
  The first pipelined call, whole: from the arrays the call finds — the [12800, 768] padded inputs, the one-entry step
  and zero point, the [768, 3072] weights and the [1, 3072] bias row — its [12800, 3072] result array ends, at (r, j),
  at the polynomial GELU of `(∑ k, q(X r k) · W k j) + B j`. Grid point t handles rows 256 t … 256 t + 255; the fifty
  row blocks tile the array.
-/
import proofs.«108376_j23948737643282_1_alg».proof.Proof.Gen.KernelIdeal.Frame
import proofs.«108376_j23948737643282_1_alg».proof.Proof.Payload
import Idealize.ShloMosaic.Lib.Pipeline.Value

set_option maxRecDepth 16384

noncomputable section

namespace Cert.KernelIdeal.Region0

open Cert.KernelIdeal Cert.KernelIdeal.Gen Cert.QuantSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The call's result array as one function of the arrays it finds. -/
def res (X : S12800x768.Idx → EReal) (S Z : S1x1.Idx → EReal) (W : S768x3072.Idx → EReal) (B : S1x3072.Idx → EReal) :
    S12800x3072.Idx → EReal := fun i =>
  gelu ((∑ k : Fin 768, actQ (S (ix2 (0 : Fin 1) (0 : Fin 1))) (Z (ix2 (0 : Fin 1) (0 : Fin 1))) (X (ix2 (i 0) k)) * W (ix2 k (i 1)))
    + B (ix2 (0 : Fin 1) (i 1)))

/-- The index maps over the grid: the row-blocked windows sit at block (t, 0), the resident ones at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every row block is some point's. -/
theorem idx_onto : ∀ q : Fin 50, ∃ t : Fin cfg0.N, t.val = q.val :=
  fun q => ⟨⟨q.val, q.isLt⟩, rfl⟩

/-- A block of the first window is rows of the array. -/
theorem iblk_0 (c : Dev nD) (t : Fin cfg0.N) (p : Fin 256) (k : Fin 768) (r : Fin 12800) (hr : r.val = t.val * 256 + p.val) :
    (iblk0 V c 0 t : S256x768.Idx → EReal) (ix2 p k) = (V c main_v1 : S12800x768.Idx → EReal) (ix2 r k) := by
  obtain ⟨e00, e01, -⟩ := idx_facts t
  unfold iblk0
  rw [View.read_apply]
  show V c main_v1 _ = V c main_v1 _
  congr 1
  funext a
  apply Fin.ext
  match a with
  | ⟨0, _⟩ => show win0_0.index t (0 : Fin 2) * 256 + 1 * p.val = r.val; rw [e00, hr]; omega
  | ⟨1, _⟩ => show win0_0.index t (1 : Fin 2) * 768 + 1 * k.val = k.val; rw [e01]; omega

/-- The resident windows' blocks are their whole arrays. -/
theorem iblk_1 (c : Dev nD) (t : Fin cfg0.N) (j : S1x1.Idx) :
    (iblk0 V c 1 t : S1x1.Idx → EReal) j = (V c main_v36 : S1x1.Idx → EReal) j := by
  obtain ⟨-, -, e10, e11, -⟩ := idx_facts t
  unfold iblk0
  rw [View.read_apply]
  show V c main_v36 _ = V c main_v36 _
  congr 1
  funext a
  apply Fin.ext
  match a with
  | ⟨0, _⟩ => show win0_1.index t (0 : Fin 2) * 1 + 1 * (j 0).val = (j 0).val; rw [e10]; omega
  | ⟨1, _⟩ => show win0_1.index t (1 : Fin 2) * 1 + 1 * (j 1).val = (j 1).val; rw [e11]; omega
theorem iblk_2 (c : Dev nD) (t : Fin cfg0.N) (j : S1x1.Idx) :
    (iblk0 V c 2 t : S1x1.Idx → EReal) j = (V c main_v37 : S1x1.Idx → EReal) j := by
  obtain ⟨-, -, -, -, e20, e21, -⟩ := idx_facts t
  unfold iblk0
  rw [View.read_apply]
  show V c main_v37 _ = V c main_v37 _
  congr 1
  funext a
  apply Fin.ext
  match a with
  | ⟨0, _⟩ => show win0_2.index t (0 : Fin 2) * 1 + 1 * (j 0).val = (j 0).val; rw [e20]; omega
  | ⟨1, _⟩ => show win0_2.index t (1 : Fin 2) * 1 + 1 * (j 1).val = (j 1).val; rw [e21]; omega
theorem iblk_3 (c : Dev nD) (t : Fin cfg0.N) (k : Fin 768) (j j' : Fin 3072) (hj : j'.val = j.val) :
    (iblk0 V c 3 t : S768x3072.Idx → EReal) (ix2 k j) = (V c main_v23 : S768x3072.Idx → EReal) (ix2 k j') := by
  obtain ⟨-, -, -, -, -, -, e30, e31, -⟩ := idx_facts t
  unfold iblk0
  rw [View.read_apply]
  show V c main_v23 _ = V c main_v23 _
  congr 1
  funext a
  apply Fin.ext
  match a with
  | ⟨0, _⟩ => show win0_3.index t (0 : Fin 2) * 768 + 1 * k.val = k.val; rw [e30]; omega
  | ⟨1, _⟩ => show win0_3.index t (1 : Fin 2) * 3072 + 1 * j.val = j'.val; rw [e31, hj]; omega
theorem iblk_4 (c : Dev nD) (t : Fin cfg0.N) (j j' : Fin 3072) (hj : j'.val = j.val) :
    (iblk0 V c 4 t : S1x3072.Idx → EReal) (ix2 (0 : Fin 1) j) = (V c main_v26 : S1x3072.Idx → EReal) (ix2 (0 : Fin 1) j') := by
  obtain ⟨-, -, -, -, -, -, -, -, e40, e41, -⟩ := idx_facts t
  unfold iblk0
  rw [View.read_apply]
  show V c main_v26 _ = V c main_v26 _
  congr 1
  funext a
  apply Fin.ext
  match a with
  | ⟨0, _⟩ => show win0_4.index t (0 : Fin 2) * 1 + 1 * 0 = 0; rw [e40]
  | ⟨1, _⟩ => show win0_4.index t (1 : Fin 2) * 3072 + 1 * j.val = j'.val; rw [e41, hj]; omega

/-- What point `t` writes back is block `t` of `res` of the arrays the call finds. -/
theorem flushed_eq (c : Dev nD) (t : Fin cfg0.N) :
    (dat0 V c).flushed 5 t = ((cfg0.win 5).blk t).view.read (Elt Ideal)
      (res (V c main_v1) (V c main_v36) (V c main_v37) (V c main_v23) (V c main_v26)) := by
  show (cfg0.win 5).cut (grid0.coords t) ((dat0 V c).after 5 t) = _
  rw [after0_5]
  unfold out0_5
  rw [View.canon_unit_zero hz]
  simp only [View.ld_unit_zero (S := S1x1) hz, View.ld_unit_zero (S := S256x768) hz, View.ld_unit_zero (S := S768x3072) hz,
    View.ld_unit_zero (S := S1x3072) hz]
  obtain ⟨e00, e01, e10, e11, e20, e21, e30, e31, e40, e41, e50, e51⟩ := idx_facts t
  funext y
  show k0_pay1 (F := Ideal) (k0_pay2 (iblk0 V c 1 t) (iblk0 V c 2 t) (iblk0 V c 0 t) (iblk0 V c 3 t) (iblk0 V c 4 t))
        (k0_pay4 (iblk0 V c 1 t) (iblk0 V c 2 t) (iblk0 V c 0 t) (iblk0 V c 3 t) (iblk0 V c 4 t))
        (k0_pay5 (iblk0 V c 1 t) (iblk0 V c 2 t) (iblk0 V c 0 t) (iblk0 V c 3 t) (iblk0 V c 4 t)) k0_pay6 y
      = res (V c main_v1) (V c main_v36) (V c main_v37) (V c main_v23) (V c main_v26) (((cfg0.win 5).blk t).view.emb y)
  refine (Payload.pay1_at (iblk0 V c 1 t) (iblk0 V c 2 t) (iblk0 V c 0 t) (iblk0 V c 3 t) (iblk0 V c 4 t) y).trans ?_
  unfold res
  have hr : ((((cfg0.win 5).blk t).view.emb y) 0).val = t.val * 256 + (y 0).val := by
    show win0_5.index t (0 : Fin 2) * 256 + 1 * (y 0).val = _
    rw [e50]; omega
  have hc : ((((cfg0.win 5).blk t).view.emb y) 1).val = (y 1).val := by
    show win0_5.index t (1 : Fin 2) * 3072 + 1 * (y 1).val = _
    rw [e51]; omega
  refine congrArg gelu (congrArg₂ (· + ·) (Finset.sum_congr rfl fun k _ => ?_) (iblk_4 V c t (y 1) _ hc))
  exact congrArg₂ (· * ·) (congr (congr (congrArg actQ (iblk_1 V c t _)) (iblk_2 V c t _)) (iblk_0 V c t (y 0) k _ hr)) (iblk_3 V c t k (y 1) _ hc)

/-- An index of the result array is in point t's block iff its row is among the block's 256 rows. -/
theorem mem_blk (t : Fin cfg0.N) (i : S12800x3072.Idx) :
    i ∈ ((cfg0.win 5).blk t).view.set ↔ ∀ a : Fin 2, win0_5.index t a * S256x3072.size a ≤ (i a).val ∧ (i a).val < win0_5.index t a * S256x3072.size a + S256x3072.size a := by
  show i ∈ ((View.whole main_v38).slice (win0_5.rect t)).set ↔ _
  rw [View.set_slice_whole, Rect.mem_set_unit]
  exact Iff.rfl

/-- The fifty row blocks cover the array: row r is in block r / 256. -/
theorem cover (i : S12800x3072.Idx) : ∃ t : Fin cfg0.N, (cfg0.win 5).flush t = true ∧ i ∈ ((cfg0.win 5).blk t).view.set := by
  have hi0 : (i 0).val < 12800 := (i 0).isLt
  have hi1 : (i 1).val < 3072 := (i 1).isLt
  have hN : cfg0.N = 50 := N_0
  let t : Fin cfg0.N := ⟨(i 0).val / 256, by rw [hN]; omega⟩
  obtain ⟨-, -, -, -, -, -, -, -, -, -, e50, e51⟩ := idx_facts t
  refine ⟨t, flush0_5 t, ?_⟩
  rw [mem_blk]
  intro a
  have ht : t.val = (i 0).val / 256 := rfl
  match a with
  | ⟨0, _⟩ => show win0_5.index t (0 : Fin 2) * 256 ≤ (i 0).val ∧ (i 0).val < win0_5.index t (0 : Fin 2) * 256 + 256; rw [e50, ht]; omega
  | ⟨1, _⟩ => show win0_5.index t (1 : Fin 2) * 3072 ≤ (i 1).val ∧ (i 1).val < win0_5.index t (1 : Fin 2) * 3072 + 3072; rw [e51]; omega

/-- The call's result array after its last point. -/
theorem final (c : Dev nD) : (dat0 V c).arrAt 5 cfg0.N
    = res (V c main_v1) (V c main_v36) (V c main_v37) (V c main_v23) (V c main_v26) :=
  (dat0 V c).arrAt_eq_of_cover 5 _ (fun t _ => flushed_eq V c t) cover

end Cert.KernelIdeal.Region0

end
-- ==== Proof.QuantHost.lean ====
/-
  The quantisation parameters as a host program spells them, read back as the specification's scalars.

  A host program computes the parameters of a tensor with whole-tensor reductions into the shape with no
  axes: the greatest entry as a `max`-reduction from `-∞`, the least as a `min`-reduction from `+∞`, the
  greatest magnitude as a `max`-reduction of the absolute values.  A reduction over all axes from the
  neutral element is the supremum (infimum) over all indices, so

  * `max (greatest - least) ε / 255` is the activation step of the pair (infimum, supremum);
  * `round (-least / step)` is its zero point;
  * `max (greatest magnitude) ε / 127` is the weight step;
  * an entry `a` of a weight tensor, divided by the broadcast step, rounded, clamped to `[-128, 127]` and
    multiplied by the broadcast step again, is the specification's quantised weight entry.
-/
import proofs.«108376_j23948737643282_1_alg».proof.Proof.QuantSpec
import proofs.«108376_j23948737643282_1_alg».proof.Proof.LibFinite
import proofs.«108376_j23948737643282_1_alg».proof.Proof.LibReduceAll
import Idealize.ShloMosaic.Lib.Pipeline.Value
import Idealize.ShloMosaic.Lib.ValueIdx
import Idealize.ShloMosaic.PureOps.Ideal.Laws

noncomputable section

namespace Cert.QuantHost

open Idealize.ShloMosaic Cert.QuantSpec LibFinite

/-- The shape with no axes. -/
abbrev S0 : Shape := ⟨0, ![]⟩

/-- The greatest entry: a `max`-reduction over all axes from the word that denotes `-∞` is the supremum. -/
theorem reduce_max_eq {s : Shape} {axes : List (Fin s.rank)} (v : FVec Ideal s .f32) (h : s.ReducesTo axes S0)
    (hu : 0 < S0.numel) (j : S0.Idx) :
    Host.reduce FloatOps.maximumf v (constant S0 .f32 0xFF800000#32) h hu j = Finset.univ.sup v :=
  LibReduceAll.reduce_scalar_maximumf v (constant (F := Ideal) S0 .f32 0xFF800000#32) h hu j ofBits_ninf

/-- The least entry: a `min`-reduction over all axes from the word that denotes `+∞` is the infimum. -/
theorem reduce_min_eq {s : Shape} {axes : List (Fin s.rank)} (v : FVec Ideal s .f32) (h : s.ReducesTo axes S0)
    (hu : 0 < S0.numel) (j : S0.Idx) :
    Host.reduce FloatOps.minimumf v (constant S0 .f32 0x7F800000#32) h hu j = Finset.univ.inf v :=
  LibReduceAll.reduce_scalar_minimumf v (constant (F := Ideal) S0 .f32 0x7F800000#32) h hu j ofBits_pinf

/-- `max (greatest - least) ε / 255` is the activation step of the infimum and the supremum. -/
theorem act_step_eq {s : Shape} {axes : List (Fin s.rank)} (v : FVec Ideal s .f32) (h : s.ReducesTo axes S0)
    (hu : 0 < S0.numel) :
    Host.divf
        (maximumf
          (subf (Host.reduce FloatOps.maximumf v (constant S0 .f32 0xFF800000#32) h hu)
            (Host.reduce FloatOps.minimumf v (constant S0 .f32 0x7F800000#32) h hu))
          (constant S0 .f32 0x322BCC77#32))
        (constant S0 .f32 0x437F0000#32)
      = fun _ => Cert.QuantSpec.actStep (Finset.univ.inf v) (Finset.univ.sup v) := by
  funext j
  show Ideal.div
      (max (Host.reduce FloatOps.maximumf v (constant S0 .f32 0xFF800000#32) h hu j
        - Host.reduce FloatOps.minimumf v (constant S0 .f32 0x7F800000#32) h hu j) cEps) c255 = _
  rw [reduce_max_eq, reduce_min_eq]
  rfl

/-- `round (-least / step)` is the zero point of the infimum and the supremum. -/
theorem act_zero_eq {s : Shape} {axes : List (Fin s.rank)} (v : FVec Ideal s .f32) (h : s.ReducesTo axes S0)
    (hu : 0 < S0.numel) :
    Host.roundeven
        (Host.divf (Host.negf (Host.reduce FloatOps.minimumf v (constant S0 .f32 0x7F800000#32) h hu))
          (Host.divf
            (maximumf
              (subf (Host.reduce FloatOps.maximumf v (constant S0 .f32 0xFF800000#32) h hu)
                (Host.reduce FloatOps.minimumf v (constant S0 .f32 0x7F800000#32) h hu))
              (constant S0 .f32 0x322BCC77#32))
            (constant S0 .f32 0x437F0000#32)))
      = fun _ => Cert.QuantSpec.actZero (Finset.univ.inf v) (Finset.univ.sup v) := by
  rw [act_step_eq v h hu]
  funext j
  show rnd (Ideal.div (-(Host.reduce FloatOps.minimumf v (constant S0 .f32 0x7F800000#32) h hu j))
      (actStep (Finset.univ.inf v) (Finset.univ.sup v))) = _
  rw [reduce_min_eq]
  rfl

/-- `max (greatest magnitude) ε / 127` is the weight step. -/
theorem w_step_eq {s : Shape} {axes : List (Fin s.rank)} (w : FVec Ideal s .f32) (h : s.ReducesTo axes S0)
    (hu : 0 < S0.numel) :
    Host.divf
        (maximumf (Host.reduce FloatOps.maximumf (Host.absf w) (constant S0 .f32 0xFF800000#32) h hu)
          (constant S0 .f32 0x322BCC77#32))
        (constant S0 .f32 0x42FE0000#32)
      = fun _ => Cert.QuantSpec.wStep (Cert.QuantSpec.absMax w) := by
  funext j
  exact congrArg (fun t => Ideal.div (max t cEps) c127) (reduce_max_eq (Host.absf w) h hu j)

/-- A weight entry divided by the broadcast step, rounded, clamped to `[-128, 127]` and scaled back by the
    broadcast step is the specification's quantised weight entry: a broadcast from the shape with no axes
    reads its operand at the one index, whatever the result index. -/
theorem w_quant_apply {s : Shape} {axes : List (Fin s.rank)} (w : FVec Ideal s .f32) (h : s.ReducesTo axes S0)
    (hu : 0 < S0.numel) (hb : S0.BroadcastsInDim s (![] : Fin 0 → Fin s.rank)) (i : s.Idx) :
    mulf
        (minimumf (broadcastInDim s ![] hb (id (constant S0 .f32 0x42FE0000#32)))
          (maximumf (broadcastInDim s ![] hb (id (constant S0 .f32 0xC3000000#32)))
            (Host.roundeven
              (Host.divf w
                (broadcastInDim s ![] hb
                  (Host.divf
                    (maximumf
                      (Host.reduce FloatOps.maximumf (Host.absf w) (constant S0 .f32 0xFF800000#32) h hu)
                      (constant S0 .f32 0x322BCC77#32))
                    (constant S0 .f32 0x42FE0000#32)))))))
        (broadcastInDim s ![] hb
          (Host.divf
            (maximumf (Host.reduce FloatOps.maximumf (Host.absf w) (constant S0 .f32 0xFF800000#32) h hu)
              (constant S0 .f32 0x322BCC77#32))
            (constant S0 .f32 0x42FE0000#32)))
        i
      = Cert.QuantSpec.wQ (Cert.QuantSpec.wStep (Cert.QuantSpec.absMax w)) (w i) := by
  rw [w_step_eq w h hu]
  rfl

/-- The quantised activation entry, unfolded. -/
theorem actQ_def' (s z a : EReal) :
    Cert.QuantSpec.actQ s z a
      = (min Cert.QuantSpec.c255 (max Cert.QuantSpec.c0 (Cert.QuantSpec.rnd (Ideal.div a s) + z)) - z) * s :=
  rfl

end Cert.QuantHost

end
-- ==== Proof.Read0.lean ====
/-
  The first pipelined call's result, read in the specification's terms. Row r of the [12608, 768] rows is token
  (r / 197, r % 197) of the inputs; padding and cutting keep the true rows; the step and zero point computed from the
  rows are the specification's (the least and greatest entry do not depend on the arrangement); the weights the call
  finds are the quantised first weight matrix, transposed; the bias row is the first bias. Hence, at a true row r and
  hidden unit j, the first call's result is the specification's hidden activation of token (r / 197, r % 197).
-/
import proofs.«108376_j23948737643282_1_alg».proof.Proof.HostStages
import proofs.«108376_j23948737643282_1_alg».proof.Proof.Region0
import proofs.«108376_j23948737643282_1_alg».proof.Proof.QuantHost
import proofs.«108376_j23948737643282_1_alg».proof.Proof.LibReduceAll
import Idealize.ShloMosaic.Lib.Pipeline.Value
import Idealize.ShloMosaic.Lib.ValueLayout
import Idealize.ShloMosaic.Lib.KernelVsHost

set_option maxRecDepth 16384

noncomputable section

namespace Cert.KernelIdeal.Read0

open Cert.KernelIdeal Cert.KernelIdeal.Gen Cert.KernelIdeal.HostStages Cert.QuantSpec
open Idealize.ShloMosaic Idealize.ShloMosaic.TcCoe Idealize.ShloMosaic.ValueIdx Idealize.SL.Sem

/-- The batch of row r. -/
abbrev rb (r : Fin 12608) : Fin 64 := ⟨r.val / 197, by have := r.isLt; omega⟩
/-- The token of row r within its batch. -/
abbrev rs (r : Fin 12608) : Fin 197 := ⟨r.val % 197, by omega⟩

/-- Row r, column k of the rows is token (r / 197, r % 197), feature k. -/
theorem rows_apply (x : S64x197x768.Idx → EReal) (r : Fin 12608) (k : Fin 768) :
    rows x (ix2 r k) = x (ix3 (rb r) (rs r) k) := by
  refine shapeCast_apply x _ _ _ ?_
  rw [Shape.rowMajor_val_three, Shape.rowMajor_val_two]
  show (r.val / 197 * 197 + r.val % 197) * 768 + k.val = r.val * 768 + k.val
  have := Nat.div_add_mod r.val 197
  omega

/-- Padding 192 rows below keeps the true rows. -/
theorem pad_true_row {n : Nat} (X : (⟨2, ![12608, n]⟩ : Shape).Idx → EReal) (v : S_.Idx → EReal)
    (h : (⟨2, ![12608, n]⟩ : Shape).Pads ![0, 0] ![192, 0] ![0, 0] ⟨2, ![12800, n]⟩) (hu : 0 < S_.numel)
    (r : Fin 12800) (k : Fin n) (hr : r.val < 12608) :
    pad (⟨2, ![12800, n]⟩ : Shape) ![0, 0] ![192, 0] ![0, 0] X v h hu (ix2 r k) = X (ix2 ⟨r.val, hr⟩ k) := by
  refine pad_apply_of_inside _ _ _ X v h hu _ _ fun a => ?_
  match a with
  | ⟨0, _⟩ => show r.val = 0 + r.val * (0 + 1); omega
  | ⟨1, _⟩ => show k.val = 0 + k.val * (0 + 1); omega

/-- A one-entry array made from a scalar holds the scalar. -/
theorem scalar_11 (v : S_.Idx → EReal) (h : S_.ShapeCasts S1x1) : shapeCast S1x1 v h (ix2 (0 : Fin 1) (0 : Fin 1)) = v ix0 := by
  refine shapeCast_apply v h _ _ ?_
  rw [Shape.rowMajor_val_two]
  show (S_.rowMajor ix0).val = 0 * 1 + 0
  have := (S_.rowMajor ix0).isLt
  have h1 : S_.numel = 1 := rfl
  omega

/-- The program's five argument arrays on core c. -/
abbrev argX (m : (ℓ : Loc nD τ sig) → Buf (Elt Ideal) ℓ) (c : Dev nD) : S64x197x768.Idx → EReal := m ((c : Thread nD τ).loc main_arg0)
abbrev argW1 (m : (ℓ : Loc nD τ sig) → Buf (Elt Ideal) ℓ) (c : Dev nD) : S3072x768.Idx → EReal := m ((c : Thread nD τ).loc main_arg1)
abbrev argB1 (m : (ℓ : Loc nD τ sig) → Buf (Elt Ideal) ℓ) (c : Dev nD) : S3072.Idx → EReal := m ((c : Thread nD τ).loc main_arg2)
abbrev argW2 (m : (ℓ : Loc nD τ sig) → Buf (Elt Ideal) ℓ) (c : Dev nD) : S768x3072.Idx → EReal := m ((c : Thread nD τ).loc main_arg3)
abbrev argB2 (m : (ℓ : Loc nD τ sig) → Buf (Elt Ideal) ℓ) (c : Dev nD) : S768.Idx → EReal := m ((c : Thread nD τ).loc main_arg4)

variable (m : (ℓ : Loc nD τ sig) → Buf (Elt Ideal) ℓ) (ρ : Dev nD → PrngReg) (c : Dev nD)

/-- The padded inputs at a true row. -/
theorem x_at (r : Fin 12800) (k : Fin 768) (hr : r.val < 12608) :
    (V13 m ρ c main_v1 : S12800x768.Idx → EReal) (ix2 r k) = (argX m c) (ix3 (rb ⟨r.val, hr⟩) (rs ⟨r.val, hr⟩) k) := by
  rw [entry0_x, pad_true_row _ _ _ _ r k hr, rows_apply]

/-- The step the first call finds is the specification's. -/
theorem s_at : (V13 m ρ c main_v36 : S1x1.Idx → EReal) (ix2 (0 : Fin 1) (0 : Fin 1)) = s1 (argX m c) := by
  rw [entry0_s, scalar_11]
  refine (congrFun (Cert.QuantHost.act_step_eq (rows (argX m c)) reducesTo_S12608x768_S_d0_1 h_S_) ix0).trans ?_
  rw [LibReduceAll.inf_univ_shapeCast, LibReduceAll.sup_univ_shapeCast]
  rfl

/-- The zero point the first call finds is the specification's. -/
theorem z_at : (V13 m ρ c main_v37 : S1x1.Idx → EReal) (ix2 (0 : Fin 1) (0 : Fin 1)) = z1 (argX m c) := by
  rw [entry0_z, scalar_11]
  refine (congrFun (Cert.QuantHost.act_zero_eq (rows (argX m c)) reducesTo_S12608x768_S_d0_1 h_S_) ix0).trans ?_
  rw [LibReduceAll.inf_univ_shapeCast, LibReduceAll.sup_univ_shapeCast]
  rfl

/-- The weights the first call finds: the quantised first matrix, transposed. -/
theorem w_at (k : Fin 768) (j : Fin 3072) :
    (V13 m ρ c main_v23 : S768x3072.Idx → EReal) (ix2 k j) = wQ (wStep (absMax (argW1 m c))) ((argW1 m c) (ix2 j k)) := by
  rw [entry0_w]
  refine (transpose_ix2_apply (wQOf (argW1 m c) reducesTo_S3072x768_S_d0_1 bcast_S_S3072x768) transposes_S3072x768_S768x3072_1_0 k j).trans ?_
  exact Cert.QuantHost.w_quant_apply (argW1 m c) reducesTo_S3072x768_S_d0_1 h_S_ bcast_S_S3072x768 (ix2 j k)

/-- The bias row the first call finds. -/
theorem b_at (j : Fin 3072) : (V13 m ρ c main_v26 : S1x3072.Idx → EReal) (ix2 (0 : Fin 1) j) = (argB1 m c) (ix1 j) := by
  rw [entry0_b, shapeCast_a_1a_apply]

/-- The first call's whole result read at (r, j). -/
theorem res_at (X : S12800x768.Idx → EReal) (S Z : S1x1.Idx → EReal) (W : S768x3072.Idx → EReal) (B : S1x3072.Idx → EReal)
    (r : Fin 12800) (j : Fin 3072) :
    Region0.res X S Z W B (ix2 r j)
      = gelu ((∑ k : Fin 768, actQ (S (ix2 (0 : Fin 1) (0 : Fin 1))) (Z (ix2 (0 : Fin 1) (0 : Fin 1))) (X (ix2 r k)) * W (ix2 k j))
        + B (ix2 (0 : Fin 1) j)) := rfl

/-- The first call's result array at a true row is the hidden activation of that row's token. -/
theorem act_at (r : Fin 12800) (j : Fin 3072) (hr : r.val < 12608) :
    (W14 m ρ c (Proc.devRef .tc main_v38) : S12800x3072.Idx → EReal) (ix2 r j)
      = act (argX m c) (argW1 m c) (argB1 m c) (ix3 (rb ⟨r.val, hr⟩) (rs ⟨r.val, hr⟩) j) := by
  have e : (W14 m ρ c (Proc.devRef .tc main_v38) : S12800x3072.Idx → EReal)
      = Region0.res (V13 m ρ c main_v1) (V13 m ρ c main_v36) (V13 m ρ c main_v37) (V13 m ρ c main_v23) (V13 m ρ c main_v26) :=
    (W14_arr m ρ c 5).trans (Region0.final (V13 m ρ) c)
  rw [e, res_at, s_at, z_at, b_at]
  unfold act hid
  refine congrArg gelu (congrArg₂ (· + ·) (Finset.sum_congr rfl fun k _ => ?_) rfl)
  rw [x_at m ρ c r k hr, w_at]

end Cert.KernelIdeal.Read0

end
-- ==== Proof.Region1.lean ====
/-
  The second pipelined call, whole: from the arrays the call finds — the [12800, 3072] padded hidden activations, the
  one-entry step and zero point, the [3072, 768] weights and the [1, 768] bias row — its [12800, 768] result array ends,
  at (r, d), at (∑ j, q(G r j) · W j d) + B d. Grid point t handles rows 256 t … 256 t + 255; the fifty row blocks tile
  the array.
-/
import proofs.«108376_j23948737643282_1_alg».proof.Proof.Gen.KernelIdeal.Frame
import proofs.«108376_j23948737643282_1_alg».proof.Proof.Payload
import Idealize.ShloMosaic.Lib.Pipeline.Value

set_option maxRecDepth 16384

noncomputable section

namespace Cert.KernelIdeal.Region1

open Cert.KernelIdeal Cert.KernelIdeal.Gen Cert.QuantSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The call's result array as one function of the arrays it finds. -/
def res (X : S12800x3072.Idx → EReal) (S Z : S1x1.Idx → EReal) (W : S3072x768.Idx → EReal) (B : S1x768.Idx → EReal) :
    S12800x768.Idx → EReal := fun i =>
  (∑ k : Fin 3072, actQ (S (ix2 (0 : Fin 1) (0 : Fin 1))) (Z (ix2 (0 : Fin 1) (0 : Fin 1))) (X (ix2 (i 0) k)) * W (ix2 k (i 1)))
    + B (ix2 (0 : Fin 1) (i 1))

/-- The index maps over the grid: the row-blocked windows sit at block (t, 0), the resident ones at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every row block is some point's. -/
theorem idx_onto : ∀ q : Fin 50, ∃ t : Fin cfg1.N, t.val = q.val :=
  fun q => ⟨⟨q.val, q.isLt⟩, rfl⟩

/-- A block of the first window is rows of the array. -/
theorem iblk_0 (c : Dev nD) (t : Fin cfg1.N) (p : Fin 256) (k : Fin 3072) (r : Fin 12800) (hr : r.val = t.val * 256 + p.val) :
    (iblk1 V c 0 t : S256x3072.Idx → EReal) (ix2 p k) = (V c main_v50 : S12800x3072.Idx → EReal) (ix2 r k) := by
  obtain ⟨e00, e01, -⟩ := idx_facts t
  unfold iblk1
  rw [View.read_apply]
  show V c main_v50 _ = V c main_v50 _
  congr 1
  funext a
  apply Fin.ext
  match a with
  | ⟨0, _⟩ => show win1_0.index t (0 : Fin 2) * 256 + 1 * p.val = r.val; rw [e00, hr]; omega
  | ⟨1, _⟩ => show win1_0.index t (1 : Fin 2) * 3072 + 1 * k.val = k.val; rw [e01]; omega

/-- The resident windows' blocks are their whole arrays. -/
theorem iblk_1 (c : Dev nD) (t : Fin cfg1.N) (j : S1x1.Idx) :
    (iblk1 V c 1 t : S1x1.Idx → EReal) j = (V c main_v48 : S1x1.Idx → EReal) j := by
  obtain ⟨-, -, e10, e11, -⟩ := idx_facts t
  unfold iblk1
  rw [View.read_apply]
  show V c main_v48 _ = V c main_v48 _
  congr 1
  funext a
  apply Fin.ext
  match a with
  | ⟨0, _⟩ => show win1_1.index t (0 : Fin 2) * 1 + 1 * (j 0).val = (j 0).val; rw [e10]; omega
  | ⟨1, _⟩ => show win1_1.index t (1 : Fin 2) * 1 + 1 * (j 1).val = (j 1).val; rw [e11]; omega
theorem iblk_2 (c : Dev nD) (t : Fin cfg1.N) (j : S1x1.Idx) :
    (iblk1 V c 2 t : S1x1.Idx → EReal) j = (V c main_v49 : S1x1.Idx → EReal) j := by
  obtain ⟨-, -, -, -, e20, e21, -⟩ := idx_facts t
  unfold iblk1
  rw [View.read_apply]
  show V c main_v49 _ = V c main_v49 _
  congr 1
  funext a
  apply Fin.ext
  match a with
  | ⟨0, _⟩ => show win1_2.index t (0 : Fin 2) * 1 + 1 * (j 0).val = (j 0).val; rw [e20]; omega
  | ⟨1, _⟩ => show win1_2.index t (1 : Fin 2) * 1 + 1 * (j 1).val = (j 1).val; rw [e21]; omega
theorem iblk_3 (c : Dev nD) (t : Fin cfg1.N) (k : Fin 3072) (j j' : Fin 768) (hj : j'.val = j.val) :
    (iblk1 V c 3 t : S3072x768.Idx → EReal) (ix2 k j) = (V c main_v25 : S3072x768.Idx → EReal) (ix2 k j') := by
  obtain ⟨-, -, -, -, -, -, e30, e31, -⟩ := idx_facts t
  unfold iblk1
  rw [View.read_apply]
  show V c main_v25 _ = V c main_v25 _
  congr 1
  funext a
  apply Fin.ext
  match a with
  | ⟨0, _⟩ => show win1_3.index t (0 : Fin 2) * 3072 + 1 * k.val = k.val; rw [e30]; omega
  | ⟨1, _⟩ => show win1_3.index t (1 : Fin 2) * 768 + 1 * j.val = j'.val; rw [e31, hj]; omega
theorem iblk_4 (c : Dev nD) (t : Fin cfg1.N) (j j' : Fin 768) (hj : j'.val = j.val) :
    (iblk1 V c 4 t : S1x768.Idx → EReal) (ix2 (0 : Fin 1) j) = (V c main_v27 : S1x768.Idx → EReal) (ix2 (0 : Fin 1) j') := by
  obtain ⟨-, -, -, -, -, -, -, -, e40, e41, -⟩ := idx_facts t
  unfold iblk1
  rw [View.read_apply]
  show V c main_v27 _ = V c main_v27 _
  congr 1
  funext a
  apply Fin.ext
  match a with
  | ⟨0, _⟩ => show win1_4.index t (0 : Fin 2) * 1 + 1 * 0 = 0; rw [e40]
  | ⟨1, _⟩ => show win1_4.index t (1 : Fin 2) * 768 + 1 * j.val = j'.val; rw [e41, hj]; omega

/-- What point `t` writes back is block `t` of `res` of the arrays the call finds. -/
theorem flushed_eq (c : Dev nD) (t : Fin cfg1.N) :
    (dat1 V c).flushed 5 t = ((cfg1.win 5).blk t).view.read (Elt Ideal)
      (res (V c main_v50) (V c main_v48) (V c main_v49) (V c main_v25) (V c main_v27)) := by
  show (cfg1.win 5).cut (grid1.coords t) ((dat1 V c).after 5 t) = _
  rw [after1_5]
  unfold out1_5
  rw [View.canon_unit_zero hz]
  simp only [View.ld_unit_zero (S := S1x1) hz, View.ld_unit_zero (S := S256x3072) hz, View.ld_unit_zero (S := S3072x768) hz,
    View.ld_unit_zero (S := S1x768) hz]
  obtain ⟨e00, e01, e10, e11, e20, e21, e30, e31, e40, e41, e50, e51⟩ := idx_facts t
  funext y
  show k1_pay1 (F := Ideal) (iblk1 V c 1 t) (iblk1 V c 2 t) (iblk1 V c 0 t) (iblk1 V c 3 t) (iblk1 V c 4 t) y
      = res (V c main_v50) (V c main_v48) (V c main_v49) (V c main_v25) (V c main_v27) (((cfg1.win 5).blk t).view.emb y)
  refine (Payload.pay1'_at (iblk1 V c 1 t) (iblk1 V c 2 t) (iblk1 V c 0 t) (iblk1 V c 3 t) (iblk1 V c 4 t) y).trans ?_
  unfold res
  have hr : ((((cfg1.win 5).blk t).view.emb y) 0).val = t.val * 256 + (y 0).val := by
    show win1_5.index t (0 : Fin 2) * 256 + 1 * (y 0).val = _
    rw [e50]; omega
  have hc : ((((cfg1.win 5).blk t).view.emb y) 1).val = (y 1).val := by
    show win1_5.index t (1 : Fin 2) * 768 + 1 * (y 1).val = _
    rw [e51]; omega
  refine congrArg₂ (· + ·) (Finset.sum_congr rfl fun k _ => ?_) (iblk_4 V c t (y 1) _ hc)
  exact congrArg₂ (· * ·) (congr (congr (congrArg actQ (iblk_1 V c t _)) (iblk_2 V c t _)) (iblk_0 V c t (y 0) k _ hr)) (iblk_3 V c t k (y 1) _ hc)

/-- An index of the result array is in point t's block iff its row is among the block's 256 rows. -/
theorem mem_blk (t : Fin cfg1.N) (i : S12800x768.Idx) :
    i ∈ ((cfg1.win 5).blk t).view.set ↔ ∀ a : Fin 2, win1_5.index t a * S256x768.size a ≤ (i a).val ∧ (i a).val < win1_5.index t a * S256x768.size a + S256x768.size a := by
  show i ∈ ((View.whole main_v51).slice (win1_5.rect t)).set ↔ _
  rw [View.set_slice_whole, Rect.mem_set_unit]
  exact Iff.rfl

/-- The fifty row blocks cover the array: row r is in block r / 256. -/
theorem cover (i : S12800x768.Idx) : ∃ t : Fin cfg1.N, (cfg1.win 5).flush t = true ∧ i ∈ ((cfg1.win 5).blk t).view.set := by
  have hi0 : (i 0).val < 12800 := (i 0).isLt
  have hi1 : (i 1).val < 768 := (i 1).isLt
  have hN : cfg1.N = 50 := N_1
  let t : Fin cfg1.N := ⟨(i 0).val / 256, by rw [hN]; omega⟩
  obtain ⟨-, -, -, -, -, -, -, -, -, -, e50, e51⟩ := idx_facts t
  refine ⟨t, flush1_5 t, ?_⟩
  rw [mem_blk]
  intro a
  have ht : t.val = (i 0).val / 256 := rfl
  match a with
  | ⟨0, _⟩ => show win1_5.index t (0 : Fin 2) * 256 ≤ (i 0).val ∧ (i 0).val < win1_5.index t (0 : Fin 2) * 256 + 256; rw [e50, ht]; omega
  | ⟨1, _⟩ => show win1_5.index t (1 : Fin 2) * 768 ≤ (i 1).val ∧ (i 1).val < win1_5.index t (1 : Fin 2) * 768 + 768; rw [e51]; omega

/-- The call's result array after its last point. -/
theorem final (c : Dev nD) : (dat1 V c).arrAt 5 cfg1.N
    = res (V c main_v50) (V c main_v48) (V c main_v49) (V c main_v25) (V c main_v27) :=
  (dat1 V c).arrAt_eq_of_cover 5 _ (fun t _ => flushed_eq V c t) cover

end Cert.KernelIdeal.Region1

end
-- ==== Proof.KernelRun.lean ====
/-
  The idealized kernel's run with its RESULT named: every weakly fair execution of the program from a memory with
  zero counters terminates without a fault, the arguments end as launched, and the result array ends at what the last
  stretch of host operations leaves from the second pipelined call's write-backs (the boundary contents `W20` of the
  generated frame). The statement is the generated frame's with one more conjunct read off the same final thread
  state; the launch, the segments and the chain of boundary contents are the generated ones.
-/
import proofs.«108376_j23948737643282_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result array named by the last boundary's contents. -/
theorem run_named : θ_run defs (onTc (τ := τ) (main (F := F))) ⟨m, fun _ => 0, ρ⟩ (fun r => ∀ c : Dev nD,
      r.2.mem ((c.tc : Thread nD τ).loc main_v53) = W20 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v53 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c)⟩)

end Cert.KernelIdeal.ValueRun

end
-- ==== Proof.KernelValue.lean ====
/-
  The second pipelined call and the program's result, read in the specification's terms. The first call's result
  cut to its true rows is the specification's hidden activations arranged as [12608, 3072] rows, so its least and
  greatest entries, hence the second step and zero point, are the specification's; the second call finds the quantised
  second weight matrix, transposed, and the second bias; its result at a true row r and feature d is the
  specification's output for token (r / 197, r % 197); cutting to the true rows and arranging them as [64, 197, 768]
  gives the specification's output.
-/
import proofs.«108376_j23948737643282_1_alg».proof.Proof.Read0
import proofs.«108376_j23948737643282_1_alg».proof.Proof.Region1
import proofs.«108376_j23948737643282_1_alg».proof.Proof.KernelRun

set_option maxRecDepth 16384

noncomputable section

namespace Cert.KernelIdeal.KernelValue

open Cert.KernelIdeal Cert.KernelIdeal.Gen Cert.KernelIdeal.HostStages Cert.KernelIdeal.Read0 Cert.QuantSpec
open Idealize.ShloMosaic Idealize.ShloMosaic.TcCoe Idealize.ShloMosaic.ValueIdx Idealize.SL.Sem

/-- The hidden activations have as many entries arranged by token as arranged by row. -/
theorem hcast : SG.ShapeCasts S12608x3072 := by decide

variable (m : (ℓ : Loc nD τ sig) → Buf (Elt Ideal) ℓ) (ρ : Dev nD → PrngReg) (c : Dev nD)

/-- The first call's result cut to its true rows, at (r, j). -/
theorem cut_at (r : Fin 12608) (j : Fin 3072) :
    cut (W14 m ρ c (Proc.devRef .tc main_v38)) (ix2 r j) = act (argX m c) (argW1 m c) (argB1 m c) (ix3 (rb r) (rs r) j) := by
  have hr : r.val < 12800 := by have := r.isLt; omega
  rw [show cut (W14 m ρ c (Proc.devRef .tc main_v38)) (ix2 r j)
      = (W14 m ρ c (Proc.devRef .tc main_v38) : S12800x3072.Idx → EReal) (ix2 (⟨r.val, hr⟩ : Fin 12800) j) from
    slice2_axis0_apply 0 _ _ r j ⟨r.val, hr⟩ (by simp)]
  exact act_at m ρ c ⟨r.val, hr⟩ j r.isLt

/-- It is the specification's hidden activations arranged as rows. -/
theorem cut_eq : cut (W14 m ρ c (Proc.devRef .tc main_v38)) = shapeCast S12608x3072 (act (argX m c) (argW1 m c) (argB1 m c)) hcast := by
  funext i
  obtain ⟨r, j, rfl⟩ : ∃ (r : Fin 12608) (j : Fin 3072), i = ix2 r j := ⟨i 0, i 1, eq_ix2 i⟩
  rw [cut_at]
  symm
  refine shapeCast_apply _ hcast _ _ ?_
  rw [Shape.rowMajor_val_three, Shape.rowMajor_val_two]
  show (r.val / 197 * 197 + r.val % 197) * 3072 + j.val = r.val * 3072 + j.val
  have := Nat.div_add_mod r.val 197
  omega

/-- The padded hidden activations the second call finds, at a true row. -/
theorem g_at (r : Fin 12800) (j : Fin 3072) (hr : r.val < 12608) :
    (V18 m ρ c main_v50 : S12800x3072.Idx → EReal) (ix2 r j) = act (argX m c) (argW1 m c) (argB1 m c) (ix3 (rb ⟨r.val, hr⟩) (rs ⟨r.val, hr⟩) j) := by
  rw [entry1_g, pad_true_row _ _ _ _ r j hr, cut_at]

/-- The second step is the specification's. -/
theorem s2_at : (V18 m ρ c main_v48 : S1x1.Idx → EReal) (ix2 (0 : Fin 1) (0 : Fin 1)) = s2 (argX m c) (argW1 m c) (argB1 m c) := by
  rw [entry1_s, scalar_11]
  refine (congrFun (Cert.QuantHost.act_step_eq (cut (W14 m ρ c (Proc.devRef .tc main_v38))) reducesTo_S12608x3072_S_d0_1 h_S_) ix0).trans ?_
  rw [cut_eq, LibReduceAll.inf_univ_shapeCast, LibReduceAll.sup_univ_shapeCast]
  rfl

/-- The second zero point is the specification's. -/
theorem z2_at : (V18 m ρ c main_v49 : S1x1.Idx → EReal) (ix2 (0 : Fin 1) (0 : Fin 1)) = z2 (argX m c) (argW1 m c) (argB1 m c) := by
  rw [entry1_z, scalar_11]
  refine (congrFun (Cert.QuantHost.act_zero_eq (cut (W14 m ρ c (Proc.devRef .tc main_v38))) reducesTo_S12608x3072_S_d0_1 h_S_) ix0).trans ?_
  rw [cut_eq, LibReduceAll.inf_univ_shapeCast, LibReduceAll.sup_univ_shapeCast]
  rfl

/-- The weights the second call finds: the quantised second matrix, transposed. -/
theorem w2_at (j : Fin 3072) (d : Fin 768) :
    (V18 m ρ c main_v25 : S3072x768.Idx → EReal) (ix2 j d) = wQ (wStep (absMax (argW2 m c))) ((argW2 m c) (ix2 d j)) := by
  rw [entry1_w]
  refine (transpose_ix2_apply (wQOf (argW2 m c) reducesTo_S768x3072_S_d0_1 bcast_S_S768x3072) transposes_S768x3072_S3072x768_1_0 j d).trans ?_
  exact Cert.QuantHost.w_quant_apply (argW2 m c) reducesTo_S768x3072_S_d0_1 h_S_ bcast_S_S768x3072 (ix2 d j)

/-- The bias row the second call finds. -/
theorem b2_at (d : Fin 768) : (V18 m ρ c main_v27 : S1x768.Idx → EReal) (ix2 (0 : Fin 1) d) = (argB2 m c) (ix1 d) := by
  rw [entry1_b, shapeCast_a_1a_apply]

/-- The second call's whole result read at (r, d). -/
theorem res_at (X : S12800x3072.Idx → EReal) (S Z : S1x1.Idx → EReal) (W : S3072x768.Idx → EReal) (B : S1x768.Idx → EReal)
    (r : Fin 12800) (d : Fin 768) :
    Region1.res X S Z W B (ix2 r d)
      = (∑ j : Fin 3072, actQ (S (ix2 (0 : Fin 1) (0 : Fin 1))) (Z (ix2 (0 : Fin 1) (0 : Fin 1))) (X (ix2 r j)) * W (ix2 j d))
        + B (ix2 (0 : Fin 1) d) := rfl

/-- The second call's result array at a true row. -/
theorem out_at (r : Fin 12800) (d : Fin 768) (hr : r.val < 12608) :
    (W19 m ρ c (Proc.devRef .tc main_v51) : S12800x768.Idx → EReal) (ix2 r d)
      = (∑ j : Fin 3072, actQ (s2 (argX m c) (argW1 m c) (argB1 m c)) (z2 (argX m c) (argW1 m c) (argB1 m c)) (act (argX m c) (argW1 m c) (argB1 m c) (ix3 (rb ⟨r.val, hr⟩) (rs ⟨r.val, hr⟩) j))
          * wQ (wStep (absMax (argW2 m c))) ((argW2 m c) (ix2 d j))) + (argB2 m c) (ix1 d) := by
  have e : (W19 m ρ c (Proc.devRef .tc main_v51) : S12800x768.Idx → EReal)
      = Region1.res (V18 m ρ c main_v50) (V18 m ρ c main_v48) (V18 m ρ c main_v49) (V18 m ρ c main_v25) (V18 m ρ c main_v27) :=
    (W19_arr m ρ c 5).trans (Region1.final (V18 m ρ) c)
  rw [e, res_at, s2_at, z2_at, b2_at]
  refine congrArg₂ (· + ·) (Finset.sum_congr rfl fun j _ => ?_) rfl
  rw [g_at m ρ c r j hr, w2_at]

/-- The program's result is the specification's output. -/
theorem result : (W20 m ρ c (Proc.devRef .tc main_v53) : S64x197x768.Idx → EReal) = out (argX m c) (argW1 m c) (argB1 m c) (argW2 m c) (argB2 m c) := by
  rw [result_eq]
  funext i
  obtain ⟨b, s, d, rfl⟩ : ∃ (b : Fin 64) (s : Fin 197) (d : Fin 768), i = ix3 b s d := ⟨i 0, i 1, i 2, eq_ix3 i⟩
  have hlt : b.val * 197 + s.val < 12608 := by have := b.isLt; have := s.isLt; omega
  have hlt' : b.val * 197 + s.val < 12800 := by omega
  rw [shapeCast_apply _ _ (ix3 b s d) (ix2 (⟨b.val * 197 + s.val, hlt⟩ : Fin 12608) d) (by
    rw [Shape.rowMajor_val_three, Shape.rowMajor_val_two]; rfl)]
  rw [slice2_axis0_apply 0 _ _ (⟨b.val * 197 + s.val, hlt⟩ : Fin 12608) d (⟨b.val * 197 + s.val, hlt'⟩ : Fin 12800) (by simp)]
  rw [out_at m ρ c ⟨b.val * 197 + s.val, hlt'⟩ d hlt]
  have hb : rb ⟨b.val * 197 + s.val, hlt⟩ = b := Fin.ext (by show (b.val * 197 + s.val) / 197 = b.val; have := s.isLt; omega)
  have hs : rs ⟨b.val * 197 + s.val, hlt⟩ = s := Fin.ext (by show (b.val * 197 + s.val) % 197 = s.val; have := s.isLt; omega)
  rw [hb, hs]
  rfl

/-- The run of the idealized kernel with its result at the specification's output of the arguments. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v53) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩) (Cert.KernelIdeal.ValueRun.run_named m ρ)

end Cert.KernelIdeal.KernelValue

end
-- ==== Proof.lean ====
/- The proof of `Cert.Claim` (proofs.«108376_j23948737643282_1_alg».proof.Defs).
   WHAT IS CLAIMED. Three programs (the kernel as printed, the kernel read over the extended reals, and the
   reference read over the extended reals) run to completion and leave their five argument arrays unchanged; the
   kernel's two readings differ by one rewriting, "one carrying the argument's sign bit" against "-1 below zero,
   1 elsewhere"; and over the extended reals, from memories that agree on the arguments and whose entries are all
   finite, the kernel's and the reference's result arrays are equal.
   WHY THE TWO RESULTS ARE EQUAL. Each is the one function `Cert.QuantSpec.out` of the arguments: a two-layer
   perceptron with a quantise / de-quantise pair around each operand of each product. The kernel rounds each
   quotient directly. The reference rounds it in the form `x + (round x - x)`, which is `round x` when `x` is
   real (at an infinite `x` the difference is not defined): this is where the precondition, every input entry
   finite, is used, carried from the kernel's memory to the reference's along their agreement on the arguments. -/
import proofs.«108376_j23948737643282_1_alg».proof.Defs
import proofs.«108376_j23948737643282_1_alg».proof.Proof.Gen.Kernel
import proofs.«108376_j23948737643282_1_alg».proof.Proof.Gen.Kernel.Skeleton
import proofs.«108376_j23948737643282_1_alg».proof.Proof.Gen.Kernel.Launch
import proofs.«108376_j23948737643282_1_alg».proof.Proof.Gen.Kernel.Points
import proofs.«108376_j23948737643282_1_alg».proof.Proof.Gen.Kernel.Frame
import proofs.«108376_j23948737643282_1_alg».proof.Proof.Gen.KernelIdeal
import proofs.«108376_j23948737643282_1_alg».proof.Proof.Gen.KernelIdeal.Skeleton
import proofs.«108376_j23948737643282_1_alg».proof.Proof.Gen.KernelIdeal.Launch
import proofs.«108376_j23948737643282_1_alg».proof.Proof.Gen.KernelIdeal.Points
import proofs.«108376_j23948737643282_1_alg».proof.Proof.Gen.KernelIdeal.Frame
import proofs.«108376_j23948737643282_1_alg».proof.Proof.Gen.ReferenceIdeal
import proofs.«108376_j23948737643282_1_alg».proof.Proof.Gen.Pre_finite_inputs
import proofs.«108376_j23948737643282_1_alg».proof.Proof.Gen.ReferenceIdeal.Run
import proofs.«108376_j23948737643282_1_alg».proof.Proof.Gen.ReferenceIdeal.Read
import Idealize.ShloMosaic.Adequacy
import Idealize.ShloMosaic.Init
import proofs.«108376_j23948737643282_1_alg».proof.Proof.RefValue
import proofs.«108376_j23948737643282_1_alg».proof.Proof.FiniteInputs
import proofs.«108376_j23948737643282_1_alg».proof.Proof.KernelValue

noncomputable section

namespace Cert.Proof

open Idealize.ShloMosaic Idealize.SL.Sem

/-- The kernel as printed runs and leaves its arguments unchanged. -/
theorem frame_Kernel : Cert.frame_Kernel := fun m ρ _ => Cert.Kernel.Gen.frame m ρ

/-- So does the kernel read over the extended reals. -/
theorem frame_KernelIdeal : Cert.frame_KernelIdeal := fun m ρ _ => Cert.KernelIdeal.Gen.frame m ρ

/-- So does the reference: the second half of what its run establishes. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The one rewriting between the kernel as printed and its reading over the extended reals: one with the
    argument's sign bit, against `-1` where the argument is below zero and `1` elsewhere. -/
theorem preserves : Cert.preserves_Kernel_KernelIdeal :=
  IdealRules.sign_bit.statement Cert.KernelIdeal.S256x3072 .f32

/-- Over the extended reals the kernel's result is the specification of its arguments; the reference's result is
    the specification of ITS arguments, which are real because the kernel's are (the precondition) and the two
    memories agree on them; so the two results are one array. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw1, hb1, hw2, -⟩ := Cert.FiniteInputs.inputs_real _ _ _ _ _ (hpre c)
  obtain ⟨e0, e1, e2, e3, e4⟩ := hagree c
  rw [Cert.ReferenceIdeal.Read.val_main_v90_eq, e0, e1, e2, e3, e4]
  exact Cert.ReferenceIdeal.RefValue.ref_eq _ _ _ _ _ hx hw1 hb1 hw2

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
